-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S8192x1 : Shape := ⟨2, ![8192, 1]⟩
abbrev S512x128 : Shape := ⟨2, ![512, 128]⟩
abbrev S512x1 : Shape := ⟨2, ![512, 1]⟩
abbrev S2048x128 : Shape := ⟨2, ![2048, 128]⟩
abbrev S128x2048 : Shape := ⟨2, ![128, 2048]⟩
abbrev S512x2048 : Shape := ⟨2, ![512, 2048]⟩
abbrev S512x16x128 : Shape := ⟨3, ![512, 16, 128]⟩
abbrev S512 : Shape := ⟨1, ![512]⟩
abbrev S8192 : Shape := ⟨1, ![8192]⟩

abbrev nBuf : Space → Nat
  | .hbm => 39
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S8192x1, .f32⟩
  | .hbm, ⟨24, _⟩ => ⟨S8192, .f32⟩
  | .hbm, ⟨25, _⟩ => ⟨S4096x128, .f32⟩
  | .hbm, ⟨26, _⟩ => ⟨S_, .f32⟩
  | .hbm, ⟨27, _⟩ => ⟨S4096, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S512x1, .f32⟩
  | .local _ .vmem, ⟨4, _⟩ => ⟨S512x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_mult2 : BitVec 32 :=
  let c0_i32 : BitVec 32 := 0#32
  let c2048_i32 : BitVec 32 := 2048#32
  let v5 : BitVec 32 := Scalar.muli c0_i32 c2048_i32
  v5
def k0_off1 (c0_i32 : BitVec 32) : Fin 2 → Nat :=
  let c2048_i32 : BitVec 32 := 2048#32
  let v5 : BitVec 32 := Scalar.muli c0_i32 c2048_i32
  let v6 : BitVec 32 := v5
  let v7 : Index := Scalar.indexCast v6
  let c0_1 : Index := 0#32
  ![v7.toNat, 0]
def k0_mult3 : BitVec 32 :=
  let c1_i32 : BitVec 32 := 1#32
  let c2048_i32_6 : BitVec 32 := 2048#32
  let v27 : BitVec 32 := Scalar.muli c1_i32 c2048_i32_6
  v27
def k0_mult4 : BitVec 32 :=
  let c2_i32 : BitVec 32 := 2#32
  let c2048_i32_12 : BitVec 32 := 2048#32
  let v49 : BitVec 32 := Scalar.muli c2_i32 c2048_i32_12
  v49
def k0_mult5 : BitVec 32 :=
  let c3_i32 : BitVec 32 := 3#32
  let c2048_i32_18 : BitVec 32 := 2048#32
  let v71 : BitVec 32 := Scalar.muli c3_i32 c2048_i32_18
  v71
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S2048x128 : 0 < S2048x128.numel
  shapeCasts_S2048x128_S2048x128 : S2048x128.ShapeCasts S2048x128
  transposes_S2048x128_p1_0_S128x2048 : S2048x128.Transposes [1, 0] S128x2048
  iota_S512x2048_d0_w32 : S512x2048.Iotas .tc 32 [0]
  iota_S512x2048_d1_w32 : S512x2048.Iotas .tc 32 [1]
  shapeCasts_S512x2048_S512x16x128 : S512x2048.ShapeCasts S512x16x128
  reduces_S512x16x128_S512x128 : S512x16x128.Reduces [1] S512x128
  reduces_S512x128_S512 : S512x128.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S8192x1_S8192 : S8192x1.ShapeCasts S8192
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S512x128_S128x2048_S512x2048_1_0_0_1_n_n_wf : DotDims.WF S512x128 S128x2048 S512x2048 [1] [0] [0] [1] [] []
  hrank0 : 0 < grid0.rank
  k0_mult1_dvd : ∀ i : grid0.Coords, 512 ∣ (k0_mult1 i).toNat
  k0_mult2_dvd : 2048 ∣ k0_mult2.toNat
  k0_off1_inb : ∀ (r : Fin 4), ∀ a, (k0_off1 (BitVec.ofNat 32 r.val)) a + S2048x128.size a ≤ S8192x128.size a
  k0_mult3_dvd : 2048 ∣ k0_mult3.toNat
  k0_mult4_dvd : 2048 ∣ k0_mult4.toNat
  k0_mult5_dvd : 2048 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_v10) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 99
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S128x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S8192x8192, .i32⟩
  | .hbm, ⟨73, _⟩ => ⟨S8192x8192, .i32⟩
  | .hbm, ⟨74, _⟩ => ⟨S_, .i32⟩
  | .hbm, ⟨75, _⟩ => ⟨S8192x8192, .i32⟩
  | .hbm, ⟨76, _⟩ => ⟨S8192x8192, .i32⟩
  | .hbm, ⟨77, _⟩ => ⟨S8192x8192, .i1⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_c_3 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_v15 : Ref sig .tc := ⟨.hbm, 45, rfl⟩
abbrev main_call2_v16 : Ref sig .tc := ⟨.hbm, 46, rfl⟩
abbrev main_v13 : Ref sig .tc := ⟨.hbm, 47, rfl⟩
abbrev main_call3_v0 : Ref sig .tc := ⟨.hbm, 48, rfl⟩
abbrev main_call3_v1 : Ref sig .tc := ⟨.hbm, 49, rfl⟩
abbrev main_call3_c : Ref sig .tc := ⟨.hbm, 50, rfl⟩
abbrev main_call3_v2 : Ref sig .tc := ⟨.hbm, 51, rfl⟩
abbrev main_call3_v3 : Ref sig .tc := ⟨.hbm, 52, rfl⟩
abbrev main_call3_c_0 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c_2 : Ref sig .tc := ⟨.hbm, 60, rfl⟩
abbrev main_call3_v9 : Ref sig .tc := ⟨.hbm, 61, rfl⟩
abbrev main_call3_v10 : Ref sig .tc := ⟨.hbm, 62, rfl⟩
abbrev main_call3_c_3 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_v15 : Ref sig .tc := ⟨.hbm, 68, rfl⟩
abbrev main_call3_v16 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_c : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_1 : Ref sig .tc := ⟨.hbm, 79, rfl⟩
abbrev main_v22 : Ref sig .tc := ⟨.hbm, 80, rfl⟩
abbrev main_v23 : Ref sig .tc := ⟨.hbm, 81, rfl⟩
abbrev main_cst_2 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_cst_3 : Ref sig .tc := ⟨.hbm, 87, rfl⟩
abbrev main_v28 : Ref sig .tc := ⟨.hbm, 88, rfl⟩
abbrev main_cst_4 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_cst_5 : Ref sig .tc := ⟨.hbm, 95, rfl⟩
abbrev main_v34 : Ref sig .tc := ⟨.hbm, 96, rfl⟩
abbrev main_cst_6 : Ref sig .tc := ⟨.hbm, 97, rfl⟩
abbrev main_v35 : Ref sig .tc := ⟨.hbm, 98, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KBody.lean ====
/-
  The body of the row-sum kernel at one grid point, and the pipeline's proof data.

  The kernel is handed the array of unit rows `reps` : [8192, 128] twice: window 0 is the block of 512 rows at the
  point, window 1 is the whole array, fetched once and kept. At point `t` the body reads the 512 rows `a` and, four
  times, 2048 rows `b` of the whole array; per chunk it forms the 512 × 2048 products `a · bᵀ`, doubles them,
  exponentiates, puts zero where the global row number equals the global column number, and adds the columns
  sixteen at a time into 128 running lane sums; the four chunks' lane sums are added and then summed over the
  lanes. The result, one number per row, is the one store into window 2's block, which it covers. Here that stored
  value is named as a function of the two blocks read (`rowOut`), the body's triple is run symbolically, and the
  proof data say: each input buffer keeps its block, the output buffer holds `rowOut` of them. The two input
  windows read ONE array: each holds half of its share.
-/
import proofs.«104813_j79534204387857_2_alg».proof.Proof.Gen.Kernel.Launch
import proofs.«104813_j79534204387857_2_alg».proof.Proof.Gen.Kernel.Skeleton
import proofs.«104813_j79534204387857_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Rowsum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The 512 rows of window 0, whole. -/
abbrev rA : Rect S512x128 := Rect.unit (s := S512x128) ![0, 0] S512x128.size inb_S512x128_S512x128_0_0
/-- The four chunks of 2048 rows of window 1. -/
abbrev rB0 : Rect S8192x128 := Rect.unit (s := S8192x128) (k0_off1 0#32) S2048x128.size (k0_off1_inb 0)
abbrev rB1 : Rect S8192x128 := Rect.unit (s := S8192x128) (k0_off1 1#32) S2048x128.size (k0_off1_inb 1)
abbrev rB2 : Rect S8192x128 := Rect.unit (s := S8192x128) (k0_off1 2#32) S2048x128.size (k0_off1_inb 2)
abbrev rB3 : Rect S8192x128 := Rect.unit (s := S8192x128) (k0_off1 3#32) S2048x128.size (k0_off1_inb 3)
/-- The 512 sums of window 2, whole. -/
abbrev rO : Rect S512x1 := Rect.unit (s := S512x1) ![0, 0] S512x1.size inb_S512x1_S512x1_0_0

/-- The first global row of the point's block, as the body computes it. -/
abbrev rowBase (i : grid0.Coords) : BitVec 32 := Scalar.muli (BitVec.ofNat 32 (i 0).val) 512#32

/-! ## What the body leaves in the output window's buffer -/

/-- The value the body stores: the lane sums of the four chunks, added in order, then summed over the lanes. -/
def rowVal (i : grid0.Coords) (x0 : Vec F S512x128 .f32) (x1 : Vec F S8192x128 .f32) : FVec F S512x1 .f32 :=
  k0_pay1
    (k0_pay7 (rowBase i) (k0_pay2 (View.ld x0 rA)) (k0_pay3 i (View.ld x0 rA) (View.ld x1 rB0)) (k0_pay4 (View.ld x0 rA) (View.ld x1 rB1))
      (k0_pay5 i) k0_pay6 (View.ld x1 rB2))
    (k0_pay8 (k0_pay2 (View.ld x0 rA)) (View.ld x1 rB3)) (k0_pay9 (rowBase i)) (Scalar.ofBits .f32 0x00000000#32)

/-- Window 2's staging buffer after the body: its one store, over the whole block. -/
def rowOut (i : grid0.Coords) (x0 : Vec F S512x128 .f32) (x1 : Vec F S8192x128 .f32) : Vec F S512x1 .f32 :=
  View.canon [⟨rO, rowVal i x0 x1⟩]

/-- The store covers the buffer. -/
theorem coverO (p0 : Vec F S512x1 .f32) (y : S512x1.Idx) :
    ∃ pc ∈ ([⟨rO, p0⟩] : List (View.Piece (Elt F) S512x1 .f32)), y ∈ pc.1.set :=
  View.cover_of_tiled [⟨rO, p0⟩] S512x1.size (by rfl) y

/-! ## The body's triple -/

set_option maxHeartbeats 4000000 in
/-- The body on whole staging memrefs, the two inputs' at read contents `x0`, `x1` and the output's at anything, runs to
    the continuation holding the inputs' as they were and the output's at `rowOut` of them. -/
theorem sound_kernel (c : Dev nD) (E : Set ℕ) (i : grid0.Coords)
    (arg1 : Memref sig .tc .vmem S512x128 .f32) (harg1 : arg1.IsWhole)
    (arg2 : Memref sig .tc .vmem S8192x128 .f32) (harg2 : arg2.IsWhole)
    (arg3 : Memref sig .tc .vmem S512x1 .f32) (harg3 : arg3.IsWhole)
    (x0 : Vec F S512x128 .f32) (x1 : Vec F S8192x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (rowOut i x0 x1)) -∗ K ⟨⟩))
      ⊢ wp frame (wpE (defs₀ (F := F)) Variants.none c none) E (cc0__rowsum_kernel i arg1 harg1 arg2 harg2 arg3 harg3) K := by
  simp only [cc0__rowsum_kernel_eq_skeleton]; unfold cc0__rowsum_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The pipeline's proof data -/

/-- The proof data on core `c`: the arrays as the region finds them; after the body at point `t` each input's buffer
    at its block and the output's at `rowOut` of the two; the invariant the scoped rest and the generator register,
    untouched; nothing owed; the array read twice held half and half. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => rowOut (grid0.coords t) (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) :
    (dat V c).after 2 t = rowOut (grid0.coords t) (iblk V c 0 t) (iblk V c 1 t) := by dsimp only [dat]

/-- Each input's current staging buffer holds its block at every point, fetched there or not: the block of 512 rows
    is fetched at every point; the whole array is fetched at the first point and its block index never moves. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Rowsum

end
-- ==== Proof.KRun.lean ====
/-
  The run of the kernel's @main: four stretches of host operations (the two row norms, the two normalised arrays,
  their concatenation `reps`), the kernel region, and the stretch after it (the row dot products, the logarithms, the
  mean). Between segments a core holds every buffer that is not scoped, at contents named by a fold from the launch
  memory. The region reads `reps` through two windows: at its entry the array's full share is split in two halves,
  one per window; no input is written, so at its exit both halves are found at the entry contents and joined again,
  and the result's array holds what the sixteen write-backs left. Read against the final state, every such buffer
  holds the fold's last value: the arguments their launch contents, the result buffer the program's value.
-/
import proofs.«104813_j79534204387857_2_alg».proof.Proof.KBody

set_option maxRecDepth 16384

noncomputable section

namespace Cert.Kernel.Rowsum

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first argument's row norms, -/
abbrev W1 : Dev nD → Valuation τ sig (Elt F) := fun c => StableHlo.after hostOps0 (W0 m ρ c)
/-- its rows divided by them, -/
abbrev W2 : Dev nD → Valuation τ sig (Elt F) := fun c => StableHlo.after hostOps0_1 (W1 m ρ c)
/-- the second argument's row norms, -/
abbrev W3 : Dev nD → Valuation τ sig (Elt F) := fun c => StableHlo.after hostOps0_2 (W2 m ρ c)
/-- and its rows divided by them and the two stacked: the region's entry. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b

/-- The result window alone. -/
abbrev outSpec : Fin 1 → Pipeline.WinSpec sig grid0.rank := fun _ => spec0 2

/-- At the region's exit: the result's array at what the write-backs leave, every other buffer as entered. -/
def W5 (c : Dev nD) : Valuation τ sig (Elt F) :=
  Pipeline.withArrays outSpec c (W4 m ρ c) fun _ => (dat (V4 m ρ) c).arrAt 2 cfg0.N
theorem W5_out (c : Dev nD) : W5 m ρ c (Proc.devRef .tc main_v11) = (dat (V4 m ρ) c).arrAt 2 cfg0.N := by
  unfold W5; exact Pipeline.withArrays_arr outSpec (fun a b _ => Subsingleton.elim a b) c _ _ 0
theorem W5_of_ne (c : Dev nD) (b : Ref sig .tc) (hb : main_v11 ≠ b) :
    W5 m ρ c (Proc.devRef .tc b) = W4 m ρ c (Proc.devRef .tc b) := by
  unfold W5; exact Pipeline.withArrays_of_ne outSpec c _ _ b (fun _ => hb)
abbrev V5 : (c : Dev nD) → (b : Ref sig .tc) → Buf (Elt F) ((c : Thread nD τ).loc b) := fun c b => W5 m ρ c b
/-- After the last stretch: the end. -/
abbrev W6 : Dev nD → Valuation τ sig (Elt F) := fun c => StableHlo.after hostOps1 (W5 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V4 m ρ) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last contents, the generator register at some state. -/
abbrev Tₙ (c : Dev nD) : sProp 𝕄 := iprop(StableHlo.held (c : Thread nD τ) (Pipeline.ucRefs τ sig) (W6 m ρ c) ∗ ∃ r, prngReg c r)

/-! ## One array behind two windows: split at the entry, joined at the exit -/

/-- The buffers behind the three windows' arrays are two. -/
theorem arr_image : Finset.univ.image (Pipeline.arrRef spec0) = {main_v10, main_v11} := by decide

/-- The buffers behind the arrays, each whole: the stacked rows and the result. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v10) ↦{fullShare} Vc main_v10) ∗ (((c : Thread nD τ).loc main_v11) ↦{fullShare} Vc main_v11)) := by
  unfold Pipeline.arrBufs
  rw [arr_image, BI.bigSep_insert (by decide), BI.bigSep_singleton]
  rfl

/-- The pipeline's arrays at contents `G`, window by window: the stacked rows at a half share twice, the result whole. -/
theorem arrays_eq3 (c : Dev nD) (G : (w : Fin cfg0.W) → Buf (Elt F) ((cfg0.win w).arr.view.loc (c : Thread nD τ))) :
    ((dat (V4 m ρ) c).arrays G : sProp 𝕄)
      = iprop((((c : Thread nD τ).loc main_v10) ↦{fullShare.left} G 0) ∗ (((c : Thread nD τ).loc main_v10) ↦{fullShare.right} G 1)
          ∗ (((c : Thread nD τ).loc main_v11) ↦{fullShare} G 2)) := by
  unfold Pipeline.Dat.arrays
  rw [bigSep_W0, (arr_whole0 0).set_eq_univ, (arr_whole0 2).set_eq_univ]
  rfl

/-- ENTRY: every unscoped buffer at the entry contents is the pipeline's arrays at them — the stacked rows' full
    share halved — and the rest. -/
theorem arrays_of_bufs (c : Dev nD) :
    (StableHlo.held (c : Thread nD τ) (Pipeline.ucRefs τ sig) (W4 m ρ c) : sProp 𝕄)
      ⊢ iprop((pdats m ρ 0 c).arrays ((pdats m ρ 0 c).arrAt · 0)
          ∗ Pipeline.unscopedRest (Ix := Unit) (Name := ℕ) (U := UR sig nD τ) (Lvl := ℕ) spec0 c (V4 m ρ c)) := by
  show _ ⊢ iprop((dat (V4 m ρ) c).arrays ((dat (V4 m ρ) c).arrAt · 0)
          ∗ Pipeline.unscopedRest (Ix := Unit) (Name := ℕ) (U := UR sig nD τ) (Lvl := ℕ) spec0 c (V4 m ρ c))
  rw [← Pipeline.unscopedBufs_held c (W4 m ρ c), Pipeline.unscopedBufs_split₀ cfgs 0 winFacts₀0.arr_unscoped c (V4 m ρ c)]
  refine sep_mono ?_ .rfl
  rw [arrays_eq3, arrBufs_eq]
  iintro ⟨H10, H11⟩
  ihave H := (pointsTo_share (PosShare.mem_left_op_right fullShare)).1 $$ H10
  icases H with ⟨HL, HR⟩
  isplitl [HL]; · iexact HL
  isplitl [HR]; · iexact HR
  iexact H11

/-- EXIT: the arrays at what the pipeline leaves — the stacked rows as entered, in both halves — and the rest are
    every unscoped buffer at the exit contents. -/
theorem bufs_of_arrays (c : Dev nD) :
    iprop((pdats m ρ 0 c).arrays ((pdats m ρ 0 c).arrAt · cfg0.N)
        ∗ Pipeline.unscopedRest (Ix := Unit) (Name := ℕ) (U := UR sig nD τ) (Lvl := ℕ) spec0 c (V4 m ρ c))
      ⊢ (StableHlo.held (c : Thread nD τ) (Pipeline.ucRefs τ sig) (W5 m ρ c) : sProp 𝕄) := by
  show iprop((dat (V4 m ρ) c).arrays ((dat (V4 m ρ) c).arrAt · cfg0.N)
        ∗ Pipeline.unscopedRest (Ix := Unit) (Name := ℕ) (U := UR sig nD τ) (Lvl := ℕ) spec0 c (V4 m ρ c)) ⊢ _
  rw [← Pipeline.unscopedBufs_held c (W5 m ρ c), Pipeline.unscopedBufs_split₀ cfgs 0 winFacts₀0.arr_unscoped c (V5 m ρ c)]
  refine sep_mono ?_ (Entails.of_eq ?_)
  · rw [arrays_eq3, (dat (V4 m ρ) c).arrAt_in 0 rfl, (dat (V4 m ρ) c).arrAt_in 1 rfl]
    rw [arrBufs_eq]
    rw [show V5 m ρ c main_v10 = V4 m ρ c main_v10 from W5_of_ne m ρ c main_v10 (by decide),
      show V5 m ρ c main_v11 = (dat (V4 m ρ) c).arrAt 2 cfg0.N from W5_out m ρ c]
    iintro ⟨HL, HR, H11⟩
    isplitl [HL HR]
    · iapply (pointsTo_share (PosShare.mem_left_op_right fullShare)).2
      isplitl [HL]; · iexact HL
      iexact HR
    iexact H11
  · unfold Pipeline.unscopedRest
    refine bigSep_congr fun b hb => ?_
    rw [show V4 m ρ c b = V5 m ρ c b from (W5_of_ne m ρ c b fun e => (Finset.mem_sdiff.mp hb).2
      (Finset.mem_image.mpr ⟨2, Finset.mem_univ _, e⟩)).symm]

/-! ## The region as a segment -/

set_option backward.isDefEq.respectTransparency.types false in
/-- The region over the thread state: entered from every unscoped buffer at `W4`, left at `W5`; the generator
    register into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    iintro ⟨⟨Hub, Hp, HO⟩, -, -⟩
    ihave H := (arrays_of_bufs m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (bufs_of_arrays m ρ c); isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and in every
    final state each unscoped buffer holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-! ## The arguments end as launched -/

/-- A buffer no host operation writes, other than the result's array, holds at the end what it held at launch. -/
theorem W6_kept (c : Dev nD) (b : Ref sig .tc) (hb : main_v11 ≠ b)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes)
    (h3 : ∀ op ∈ (hostOps0_3 : List (HloOp τ sig (Elt F))), Proc.devRef .tc b ∉ op.writes)
    (h4 : ∀ op ∈ (hostOps1 : List (HloOp τ sig (Elt F))), Proc.devRef .tc b ∉ op.writes) :
    W6 m ρ c (Proc.devRef .tc b) = m ((c : Thread nD τ).loc b) :=
  calc W6 m ρ c (Proc.devRef .tc b)
    _ = W5 m ρ c (Proc.devRef .tc b) := StableHlo.after_of_forall_not_mem (b := Proc.devRef .tc b) _ _ h4
    _ = W4 m ρ c (Proc.devRef .tc b) := W5_of_ne m ρ c b hb
    _ = W3 m ρ c (Proc.devRef .tc b) := StableHlo.after_of_forall_not_mem (b := Proc.devRef .tc b) _ _ h3
    _ = W2 m ρ c (Proc.devRef .tc b) := StableHlo.after_of_forall_not_mem (b := Proc.devRef .tc b) _ _ h2
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c : Thread nD τ).loc b) := rfl

/-- No host operation writes an argument. -/
theorem not_written (b : Ref sig .tc) (hb : b = main_arg0 ∨ b = main_arg1) (ops : List (HloOp τ sig (Elt F)))
    (hops : ops = hostOps0 ∨ ops = hostOps0_1 ∨ ops = hostOps0_2 ∨ ops = hostOps0_3 ∨ ops = hostOps1) :
    ∀ op ∈ ops, Proc.devRef .tc b ∉ op.writes := by
  refine List.forall_iff_forall_mem.mp ?_
  rcases hb with rfl | rfl <;> rcases hops with rfl | rfl | rfl | rfl | rfl <;>
  · simp only [hostOps0, hostOps0_1, hostOps0_2, hostOps0_3, hostOps1, List.Forall, StableHlo.TRef.binary, StableHlo.TRef.unary,
      StableHlo.TRef.nullary, StableHlo.nullary_writes, StableHlo.unary_writes, StableHlo.binary_writes,
      StableHlo.reshape_writes, Finset.mem_singleton]
    repeat' apply And.intro
    all_goals exact StableHlo.devRef_ne_of_ne (by decide)

theorem W6_arg0 (c : Dev nD) : W6 m ρ c (Proc.devRef .tc main_arg0) = m ((c : Thread nD τ).loc main_arg0) :=
  W6_kept m ρ c main_arg0 (by decide) (not_written _ (.inl rfl) _ (.inl rfl)) (not_written _ (.inl rfl) _ (.inr (.inl rfl)))
    (not_written _ (.inl rfl) _ (.inr (.inr (.inl rfl)))) (not_written _ (.inl rfl) _ (.inr (.inr (.inr (.inl rfl)))))
    (not_written _ (.inl rfl) _ (.inr (.inr (.inr (.inr rfl)))))
theorem W6_arg1 (c : Dev nD) : W6 m ρ c (Proc.devRef .tc main_arg1) = m ((c : Thread nD τ).loc main_arg1) :=
  W6_kept m ρ c main_arg1 (by decide) (not_written _ (.inr rfl) _ (.inl rfl)) (not_written _ (.inr rfl) _ (.inr (.inl rfl)))
    (not_written _ (.inr rfl) _ (.inr (.inr (.inl rfl)))) (not_written _ (.inr rfl) _ (.inr (.inr (.inr (.inl rfl)))))
    (not_written _ (.inr rfl) _ (.inr (.inr (.inr (.inr rfl)))))

/-- The run with the result buffer named and the arguments unchanged. -/
theorem run_main : θ_run defs (onTc (τ := τ) (main (F := F))) ⟨m, fun _ => 0, ρ⟩ (fun r => ∀ c : Dev nD,
      r.2.mem ((c.tc : Thread nD τ).loc main_v22) = W6 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v22 (by decide)),
     (h c _ (mem_uc main_arg0 (by decide))).trans (W6_arg0 m ρ c),
     (h c _ (mem_uc main_arg1 (by decide))).trans (W6_arg1 m ρ c)⟩) (run_all m ρ)

/-- The frame: the run, the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_main m ρ)

end Cert.Kernel.Rowsum

end
-- ==== Proof.KiBody.lean ====
/-
  The body of the row-sum kernel at one grid point, and the pipeline's proof data.

  The kernel is handed the array of unit rows `reps` : [8192, 128] twice: window 0 is the block of 512 rows at the
  point, window 1 is the whole array, fetched once and kept. At point `t` the body reads the 512 rows `a` and, four
  times, 2048 rows `b` of the whole array; per chunk it forms the 512 × 2048 products `a · bᵀ`, doubles them,
  exponentiates, puts zero where the global row number equals the global column number, and adds the columns
  sixteen at a time into 128 running lane sums; the four chunks' lane sums are added and then summed over the
  lanes. The result, one number per row, is the one store into window 2's block, which it covers. Here that stored
  value is named as a function of the two blocks read (`rowOut`), the body's triple is run symbolically, and the
  proof data say: each input buffer keeps its block, the output buffer holds `rowOut` of them. The two input
  windows read ONE array: each holds half of its share.
-/
import proofs.«104813_j79534204387857_2_alg».proof.Proof.Gen.KernelIdeal.Launch
import proofs.«104813_j79534204387857_2_alg».proof.Proof.Gen.KernelIdeal.Skeleton
import proofs.«104813_j79534204387857_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rowsum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The 512 rows of window 0, whole. -/
abbrev rA : Rect S512x128 := Rect.unit (s := S512x128) ![0, 0] S512x128.size inb_S512x128_S512x128_0_0
/-- The four chunks of 2048 rows of window 1. -/
abbrev rB0 : Rect S8192x128 := Rect.unit (s := S8192x128) (k0_off1 0#32) S2048x128.size (k0_off1_inb 0)
abbrev rB1 : Rect S8192x128 := Rect.unit (s := S8192x128) (k0_off1 1#32) S2048x128.size (k0_off1_inb 1)
abbrev rB2 : Rect S8192x128 := Rect.unit (s := S8192x128) (k0_off1 2#32) S2048x128.size (k0_off1_inb 2)
abbrev rB3 : Rect S8192x128 := Rect.unit (s := S8192x128) (k0_off1 3#32) S2048x128.size (k0_off1_inb 3)
/-- The 512 sums of window 2, whole. -/
abbrev rO : Rect S512x1 := Rect.unit (s := S512x1) ![0, 0] S512x1.size inb_S512x1_S512x1_0_0

/-- The first global row of the point's block, as the body computes it. -/
abbrev rowBase (i : grid0.Coords) : BitVec 32 := Scalar.muli (BitVec.ofNat 32 (i 0).val) 512#32

/-! ## What the body leaves in the output window's buffer -/

/-- The value the body stores: the lane sums of the four chunks, added in order, then summed over the lanes. -/
def rowVal (i : grid0.Coords) (x0 : Vec F S512x128 .f32) (x1 : Vec F S8192x128 .f32) : FVec F S512x1 .f32 :=
  k0_pay1
    (k0_pay7 (rowBase i) (k0_pay2 (View.ld x0 rA)) (k0_pay3 i (View.ld x0 rA) (View.ld x1 rB0)) (k0_pay4 (View.ld x0 rA) (View.ld x1 rB1))
      (k0_pay5 i) k0_pay6 (View.ld x1 rB2))
    (k0_pay8 (k0_pay2 (View.ld x0 rA)) (View.ld x1 rB3)) (k0_pay9 (rowBase i)) (Scalar.ofBits .f32 0x00000000#32)

/-- Window 2's staging buffer after the body: its one store, over the whole block. -/
def rowOut (i : grid0.Coords) (x0 : Vec F S512x128 .f32) (x1 : Vec F S8192x128 .f32) : Vec F S512x1 .f32 :=
  View.canon [⟨rO, rowVal i x0 x1⟩]

/-- The store covers the buffer. -/
theorem coverO (p0 : Vec F S512x1 .f32) (y : S512x1.Idx) :
    ∃ pc ∈ ([⟨rO, p0⟩] : List (View.Piece (Elt F) S512x1 .f32)), y ∈ pc.1.set :=
  View.cover_of_tiled [⟨rO, p0⟩] S512x1.size (by rfl) y

/-! ## The body's triple -/

set_option maxHeartbeats 4000000 in
/-- The body on whole staging memrefs, the two inputs' at read contents `x0`, `x1` and the output's at anything, runs to
    the continuation holding the inputs' as they were and the output's at `rowOut` of them. -/
theorem sound_kernel (c : Dev nD) (E : Set ℕ) (i : grid0.Coords)
    (arg1 : Memref sig .tc .vmem S512x128 .f32) (harg1 : arg1.IsWhole)
    (arg2 : Memref sig .tc .vmem S8192x128 .f32) (harg2 : arg2.IsWhole)
    (arg3 : Memref sig .tc .vmem S512x1 .f32) (harg3 : arg3.IsWhole)
    (x0 : Vec F S512x128 .f32) (x1 : Vec F S8192x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (rowOut i x0 x1)) -∗ K ⟨⟩))
      ⊢ wp frame (wpE (defs₀ (F := F)) Variants.none c none) E (cc0__rowsum_kernel i arg1 harg1 arg2 harg2 arg3 harg3) K := by
  simp only [cc0__rowsum_kernel_eq_skeleton]; unfold cc0__rowsum_kernel_skel
  simp only [k0_part1_eq_skeleton, k0_part2_eq_skeleton]
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The pipeline's proof data -/

/-- The proof data on core `c`: the arrays as the region finds them; after the body at point `t` each input's buffer
    at its block and the output's at `rowOut` of the two; the invariant the scoped rest and the generator register,
    untouched; nothing owed; the array read twice held half and half. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => rowOut (grid0.coords t) (iblk V c 0 t) (iblk V c 1 t)
  Φ _ := Pipeline.ΦA spec0 c
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) :
    (dat V c).after 2 t = rowOut (grid0.coords t) (iblk V c 0 t) (iblk V c 1 t) := by dsimp only [dat]

/-- Each input's current staging buffer holds its block at every point, fetched there or not: the block of 512 rows
    is fetched at every point; the whole array is fetched at the first point and its block index never moves. -/
theorem before_0 (c : Dev nD) (t : Fin cfg0.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Rowsum

end
-- ==== Proof.KiRun.lean ====
/-
  The run of the kernel's @main: four stretches of host operations (the two row norms, the two normalised arrays,
  their concatenation `reps`), the kernel region, and the stretch after it (the row dot products, the logarithms, the
  mean). Between segments a core holds every buffer that is not scoped, at contents named by a fold from the launch
  memory. The region reads `reps` through two windows: at its entry the array's full share is split in two halves,
  one per window; no input is written, so at its exit both halves are found at the entry contents and joined again,
  and the result's array holds what the sixteen write-backs left. Read against the final state, every such buffer
  holds the fold's last value: the arguments their launch contents, the result buffer the program's value.
-/
import proofs.«104813_j79534204387857_2_alg».proof.Proof.KiBody

set_option maxRecDepth 16384

noncomputable section

namespace Cert.KernelIdeal.Rowsum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first argument's row norms, -/
abbrev W1 : Dev nD → Valuation τ sig (Elt F) := fun c => StableHlo.after hostOps0 (W0 m ρ c)
/-- its rows divided by them, -/
abbrev W2 : Dev nD → Valuation τ sig (Elt F) := fun c => StableHlo.after hostOps0_1 (W1 m ρ c)
/-- the second argument's row norms, -/
abbrev W3 : Dev nD → Valuation τ sig (Elt F) := fun c => StableHlo.after hostOps0_2 (W2 m ρ c)
/-- and its rows divided by them and the two stacked: the region's entry. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b

/-- The result window alone. -/
abbrev outSpec : Fin 1 → Pipeline.WinSpec sig grid0.rank := fun _ => spec0 2

/-- At the region's exit: the result's array at what the write-backs leave, every other buffer as entered. -/
def W5 (c : Dev nD) : Valuation τ sig (Elt F) :=
  Pipeline.withArrays outSpec c (W4 m ρ c) fun _ => (dat (V4 m ρ) c).arrAt 2 cfg0.N
theorem W5_out (c : Dev nD) : W5 m ρ c (Proc.devRef .tc main_v11) = (dat (V4 m ρ) c).arrAt 2 cfg0.N := by
  unfold W5; exact Pipeline.withArrays_arr outSpec (fun a b _ => Subsingleton.elim a b) c _ _ 0
theorem W5_of_ne (c : Dev nD) (b : Ref sig .tc) (hb : main_v11 ≠ b) :
    W5 m ρ c (Proc.devRef .tc b) = W4 m ρ c (Proc.devRef .tc b) := by
  unfold W5; exact Pipeline.withArrays_of_ne outSpec c _ _ b (fun _ => hb)
abbrev V5 : (c : Dev nD) → (b : Ref sig .tc) → Buf (Elt F) ((c : Thread nD τ).loc b) := fun c b => W5 m ρ c b
/-- After the last stretch: the end. -/
abbrev W6 : Dev nD → Valuation τ sig (Elt F) := fun c => StableHlo.after hostOps1 (W5 m ρ c)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V4 m ρ) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every unscoped buffer at the last contents, the generator register at some state. -/
abbrev Tₙ (c : Dev nD) : sProp 𝕄 := iprop(StableHlo.held (c : Thread nD τ) (Pipeline.ucRefs τ sig) (W6 m ρ c) ∗ ∃ r, prngReg c r)

/-! ## One array behind two windows: split at the entry, joined at the exit -/

/-- The buffers behind the three windows' arrays are two. -/
theorem arr_image : Finset.univ.image (Pipeline.arrRef spec0) = {main_v10, main_v11} := by decide

/-- The buffers behind the arrays, each whole: the stacked rows and the result. -/
theorem arrBufs_eq (c : Dev nD) (Vc : (b : Ref sig .tc) → Buf (Elt F) ((c : Thread nD τ).loc b)) :
    (Pipeline.arrBufs (Ix := Unit) (Name := ℕ) (U := UR sig nD τ) (Lvl := ℕ) spec0 c Vc : sProp 𝕄)
      = iprop((((c : Thread nD τ).loc main_v10) ↦{fullShare} Vc main_v10) ∗ (((c : Thread nD τ).loc main_v11) ↦{fullShare} Vc main_v11)) := by
  unfold Pipeline.arrBufs
  rw [arr_image, BI.bigSep_insert (by decide), BI.bigSep_singleton]
  rfl

/-- The pipeline's arrays at contents `G`, window by window: the stacked rows at a half share twice, the result whole. -/
theorem arrays_eq3 (c : Dev nD) (G : (w : Fin cfg0.W) → Buf (Elt F) ((cfg0.win w).arr.view.loc (c : Thread nD τ))) :
    ((dat (V4 m ρ) c).arrays G : sProp 𝕄)
      = iprop((((c : Thread nD τ).loc main_v10) ↦{fullShare.left} G 0) ∗ (((c : Thread nD τ).loc main_v10) ↦{fullShare.right} G 1)
          ∗ (((c : Thread nD τ).loc main_v11) ↦{fullShare} G 2)) := by
  unfold Pipeline.Dat.arrays
  rw [bigSep_W0, (arr_whole0 0).set_eq_univ, (arr_whole0 2).set_eq_univ]
  rfl

/-- ENTRY: every unscoped buffer at the entry contents is the pipeline's arrays at them — the stacked rows' full
    share halved — and the rest. -/
theorem arrays_of_bufs (c : Dev nD) :
    (StableHlo.held (c : Thread nD τ) (Pipeline.ucRefs τ sig) (W4 m ρ c) : sProp 𝕄)
      ⊢ iprop((pdats m ρ 0 c).arrays ((pdats m ρ 0 c).arrAt · 0)
          ∗ Pipeline.unscopedRest (Ix := Unit) (Name := ℕ) (U := UR sig nD τ) (Lvl := ℕ) spec0 c (V4 m ρ c)) := by
  show _ ⊢ iprop((dat (V4 m ρ) c).arrays ((dat (V4 m ρ) c).arrAt · 0)
          ∗ Pipeline.unscopedRest (Ix := Unit) (Name := ℕ) (U := UR sig nD τ) (Lvl := ℕ) spec0 c (V4 m ρ c))
  rw [← Pipeline.unscopedBufs_held c (W4 m ρ c), Pipeline.unscopedBufs_split₀ cfgs 0 winFacts₀0.arr_unscoped c (V4 m ρ c)]
  refine sep_mono ?_ .rfl
  rw [arrays_eq3, arrBufs_eq]
  iintro ⟨H10, H11⟩
  ihave H := (pointsTo_share (PosShare.mem_left_op_right fullShare)).1 $$ H10
  icases H with ⟨HL, HR⟩
  isplitl [HL]; · iexact HL
  isplitl [HR]; · iexact HR
  iexact H11

/-- EXIT: the arrays at what the pipeline leaves — the stacked rows as entered, in both halves — and the rest are
    every unscoped buffer at the exit contents. -/
theorem bufs_of_arrays (c : Dev nD) :
    iprop((pdats m ρ 0 c).arrays ((pdats m ρ 0 c).arrAt · cfg0.N)
        ∗ Pipeline.unscopedRest (Ix := Unit) (Name := ℕ) (U := UR sig nD τ) (Lvl := ℕ) spec0 c (V4 m ρ c))
      ⊢ (StableHlo.held (c : Thread nD τ) (Pipeline.ucRefs τ sig) (W5 m ρ c) : sProp 𝕄) := by
  show iprop((dat (V4 m ρ) c).arrays ((dat (V4 m ρ) c).arrAt · cfg0.N)
        ∗ Pipeline.unscopedRest (Ix := Unit) (Name := ℕ) (U := UR sig nD τ) (Lvl := ℕ) spec0 c (V4 m ρ c)) ⊢ _
  rw [← Pipeline.unscopedBufs_held c (W5 m ρ c), Pipeline.unscopedBufs_split₀ cfgs 0 winFacts₀0.arr_unscoped c (V5 m ρ c)]
  refine sep_mono ?_ (Entails.of_eq ?_)
  · rw [arrays_eq3, (dat (V4 m ρ) c).arrAt_in 0 rfl, (dat (V4 m ρ) c).arrAt_in 1 rfl]
    rw [arrBufs_eq]
    rw [show V5 m ρ c main_v10 = V4 m ρ c main_v10 from W5_of_ne m ρ c main_v10 (by decide),
      show V5 m ρ c main_v11 = (dat (V4 m ρ) c).arrAt 2 cfg0.N from W5_out m ρ c]
    iintro ⟨HL, HR, H11⟩
    isplitl [HL HR]
    · iapply (pointsTo_share (PosShare.mem_left_op_right fullShare)).2
      isplitl [HL]; · iexact HL
      iexact HR
    iexact H11
  · unfold Pipeline.unscopedRest
    refine bigSep_congr fun b hb => ?_
    rw [show V4 m ρ c b = V5 m ρ c b from (W5_of_ne m ρ c b fun e => (Finset.mem_sdiff.mp hb).2
      (Finset.mem_image.mpr ⟨2, Finset.mem_univ _, e⟩)).symm]

/-! ## The region as a segment -/

set_option backward.isDefEq.respectTransparency.types false in
/-- The region over the thread state: entered from every unscoped buffer at `W4`, left at `W5`; the generator
    register into the invariant and out; nothing owed; no semaphore of the kernel's own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    iintro ⟨⟨Hub, Hp, HO⟩, -, -⟩
    ihave H := (arrays_of_bufs m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (bufs_of_arrays m ρ c); isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and in every
    final state each unscoped buffer holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-! ## The arguments end as launched -/

/-- A buffer no host operation writes, other than the result's array, holds at the end what it held at launch. -/
theorem W6_kept (c : Dev nD) (b : Ref sig .tc) (hb : main_v11 ≠ b)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes)
    (h3 : ∀ op ∈ (hostOps0_3 : List (HloOp τ sig (Elt F))), Proc.devRef .tc b ∉ op.writes)
    (h4 : ∀ op ∈ (hostOps1 : List (HloOp τ sig (Elt F))), Proc.devRef .tc b ∉ op.writes) :
    W6 m ρ c (Proc.devRef .tc b) = m ((c : Thread nD τ).loc b) :=
  calc W6 m ρ c (Proc.devRef .tc b)
    _ = W5 m ρ c (Proc.devRef .tc b) := StableHlo.after_of_forall_not_mem (b := Proc.devRef .tc b) _ _ h4
    _ = W4 m ρ c (Proc.devRef .tc b) := W5_of_ne m ρ c b hb
    _ = W3 m ρ c (Proc.devRef .tc b) := StableHlo.after_of_forall_not_mem (b := Proc.devRef .tc b) _ _ h3
    _ = W2 m ρ c (Proc.devRef .tc b) := StableHlo.after_of_forall_not_mem (b := Proc.devRef .tc b) _ _ h2
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c : Thread nD τ).loc b) := rfl

/-- No host operation writes an argument. -/
theorem not_written (b : Ref sig .tc) (hb : b = main_arg0 ∨ b = main_arg1) (ops : List (HloOp τ sig (Elt F)))
    (hops : ops = hostOps0 ∨ ops = hostOps0_1 ∨ ops = hostOps0_2 ∨ ops = hostOps0_3 ∨ ops = hostOps1) :
    ∀ op ∈ ops, Proc.devRef .tc b ∉ op.writes := by
  refine List.forall_iff_forall_mem.mp ?_
  rcases hb with rfl | rfl <;> rcases hops with rfl | rfl | rfl | rfl | rfl <;>
  · simp only [hostOps0, hostOps0_1, hostOps0_2, hostOps0_3, hostOps1, List.Forall, StableHlo.TRef.binary, StableHlo.TRef.unary,
      StableHlo.TRef.nullary, StableHlo.nullary_writes, StableHlo.unary_writes, StableHlo.binary_writes,
      StableHlo.reshape_writes, Finset.mem_singleton]
    repeat' apply And.intro
    all_goals exact StableHlo.devRef_ne_of_ne (by decide)

theorem W6_arg0 (c : Dev nD) : W6 m ρ c (Proc.devRef .tc main_arg0) = m ((c : Thread nD τ).loc main_arg0) :=
  W6_kept m ρ c main_arg0 (by decide) (not_written _ (.inl rfl) _ (.inl rfl)) (not_written _ (.inl rfl) _ (.inr (.inl rfl)))
    (not_written _ (.inl rfl) _ (.inr (.inr (.inl rfl)))) (not_written _ (.inl rfl) _ (.inr (.inr (.inr (.inl rfl)))))
    (not_written _ (.inl rfl) _ (.inr (.inr (.inr (.inr rfl)))))
theorem W6_arg1 (c : Dev nD) : W6 m ρ c (Proc.devRef .tc main_arg1) = m ((c : Thread nD τ).loc main_arg1) :=
  W6_kept m ρ c main_arg1 (by decide) (not_written _ (.inr rfl) _ (.inl rfl)) (not_written _ (.inr rfl) _ (.inr (.inl rfl)))
    (not_written _ (.inr rfl) _ (.inr (.inr (.inl rfl)))) (not_written _ (.inr rfl) _ (.inr (.inr (.inr (.inl rfl)))))
    (not_written _ (.inr rfl) _ (.inr (.inr (.inr (.inr rfl)))))

/-- The run with the result buffer named and the arguments unchanged. -/
theorem run_main : θ_run defs (onTc (τ := τ) (main (F := F))) ⟨m, fun _ => 0, ρ⟩ (fun r => ∀ c : Dev nD,
      r.2.mem ((c.tc : Thread nD τ).loc main_v22) = W6 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v22 (by decide)),
     (h c _ (mem_uc main_arg0 (by decide))).trans (W6_arg0 m ρ c),
     (h c _ (mem_uc main_arg1 (by decide))).trans (W6_arg1 m ρ c)⟩) (run_all m ρ)

/-- The frame: the run, the result forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_main m ρ)

end Cert.KernelIdeal.Rowsum

end
-- ==== Proof.LibDotAt.lean ====
/-
  A matrix product read at one entry.

  For dimension numbers that contract the second axis of an M × K left operand with the first axis of a K × N right
  operand, with no batch axis, both the vector unit's matmul into a zero accumulator and the host's dot_general are, at
  the ideal values and at the output entry (p, q), the plain sum  Σ_{k < K} l[p,k] · r[k,q].  The four hypotheses say
  where the dimension numbers send an output index and a contraction index; for a printed record each is one line
  (unfold the operand index and decide which axes are batch, kept or contracted). Any extents.
-/
import Idealize.ShloMosaic.PureOps.Ideal.Laws
import Idealize.ShloMosaic.Lib.ValueIdx

noncomputable section

open scoped BigOperators

namespace Cert.LibDotAt

open Idealize.ShloMosaic Idealize.ShloMosaic.ValueIdx

variable {M K N : Nat} {φ₁ φ₂ : FTy}

/-- The operand indices of a plain M×K by K×N product, once the contraction index is the coordinate `k`. -/
theorem operand_idx (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (p : Fin M) (q : Fin N) (k : Fin K) :
    D.lhsIdx (ix2 p q) ((contrEquiv1 D K hr hs).symm k) = ix2 p k
      ∧ D.rhsIdx (ix2 p q) ((contrEquiv1 D K hr hs).symm k) = ix2 k q := by
  have hk := contrEquiv1_symm_val D K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The vector unit's matmul into the zero accumulator, at entry (p, q). -/
theorem matmul_zero_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ φ₁) (r : FVec Ideal ⟨2, ![K, N]⟩ φ₂)
    (p : Fin M) (q : Fin N) :
    FloatOps.matmul D prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p q k
  rw [el, er]

/-- The host's dot_general, at entry (p, q): the same sum, whatever the schedule. -/
theorem dotGeneral_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  rw [Ideal.dotGeneral_apply, ← Equiv.sum_comp (contrEquiv1 D K hr hs).symm]
  refine Finset.sum_congr rfl fun k _ => ?_
  obtain ⟨el, er⟩ := operand_idx D hr hs hl0 hl1 hr0 hr1 p q k
  rw [el, er]

end Cert.LibDotAt

end
-- ==== Proof.Spec.lean ====
/-
  What the two programs compute from the stacked unit rows, stated once over the array `R` of 8192 rows of 128.
  The Gram entry of rows `r` and `c` is their dot product. A row's denominator is the sum, over every OTHER row `c`,
  of the exponential of twice the Gram entry (the temperature is one half): the diagonal term is replaced by zero.
  A row's partner is the row 4096 further on, cyclically, and its positive is the Gram entry with its partner.
-/
import Idealize.ShloMosaic.PureOps.Ideal.Laws
import Idealize.ShloMosaic.Lib.ValueIdx

noncomputable section

namespace Cert.RowsumSpec

open Idealize.ShloMosaic Idealize.ShloMosaic.ValueIdx

/-- The stacked rows at the ideal values. -/
abbrev Reps := (⟨2, ![8192, 128]⟩ : Shape).Idx → EReal

/-- The dot product of rows `r` and `c`. -/
def gram (R : Reps) (r c : Fin 8192) : EReal := ∑ k : Fin 128, R (ix2 r k) * R (ix2 c k)

/-- The word of the float 2. -/
abbrev two : EReal := Ideal.ofBits .f32 0x40000000#32

/-- Column `c`'s term of row `r`'s denominator: nothing on the diagonal, else the exponential of twice the Gram entry. -/
def term (R : Reps) (r c : Fin 8192) : EReal := if r.val = c.val then 0 else Ideal.exp (gram R r c * two)

/-- Row `r`'s denominator. -/
def den (R : Reps) (r : Fin 8192) : EReal := ∑ c : Fin 8192, term R r c

/-- The row 4096 further on, cyclically. -/
def partner (r : Fin 8192) : Fin 8192 := ⟨(r.val + 4096) % 8192, Nat.mod_lt _ (by decide)⟩

/-- Row `r`'s positive. -/
def pos (R : Reps) (r : Fin 8192) : EReal := gram R r (partner r)

end Cert.RowsumSpec

end
-- ==== Proof.Alg.lean ====
/-
  Regrouping a row sum. The reference adds the 8192 masked exponentials of a row in column order; the kernel adds, per
  chunk of 2048 columns, sixteen groups of 128 lanes into 128 lane sums, the four chunks' lane sums together, and last
  the 128 lanes. Column `c · 2048 + g · 128 + l` is chunk `c`, group `g`, lane `l`, and every column is exactly one
  such: in a commutative monoid the two sums agree. Addition of extended reals is commutative and associative, so no
  finiteness is needed.
-/
import Mathlib.Algebra.BigOperators.Fin
import Mathlib.Algebra.BigOperators.Group.Finset.Basic
import Mathlib.Logic.Equiv.Fin.Basic
import Mathlib.Tactic

namespace Cert.RowsumAlg

open Finset

/-- A sum over `a · b` consecutive numbers, split as `a` runs of `b`. -/
theorem sum_fin_mul {M : Type*} [AddCommMonoid M] (a b : ℕ) (F : ℕ → M) :
    (∑ i : Fin (a * b), F i.val) = ∑ x : Fin a, ∑ y : Fin b, F (x.val * b + y.val) := by
  rw [← (finProdFinEquiv (m := a) (n := b)).sum_comp, Fintype.sum_prod_type]
  refine Finset.sum_congr rfl fun x _ => Finset.sum_congr rfl fun y _ => ?_
  congr 1
  simp only [finProdFinEquiv_apply_val]
  ring

/-- The 8192 columns as lane, chunk and group. -/
theorem sum_cols {M : Type*} [AddCommMonoid M] (F : ℕ → M) :
    (∑ col : Fin 8192, F col.val) = ∑ l : Fin 128, ∑ c : Fin 4, ∑ g : Fin 16, F (c.val * 2048 + (g.val * 128 + l.val)) := by
  have h1 : (∑ col : Fin 8192, F col.val) = ∑ c : Fin 4, ∑ j : Fin 2048, F (c.val * 2048 + j.val) := sum_fin_mul 4 2048 F
  have h2 : ∀ c : Fin 4, (∑ j : Fin 2048, F (c.val * 2048 + j.val))
      = ∑ g : Fin 16, ∑ l : Fin 128, F (c.val * 2048 + (g.val * 128 + l.val)) :=
    fun c => sum_fin_mul 16 128 fun j => F (c.val * 2048 + j)
  rw [h1]
  calc (∑ c : Fin 4, ∑ j : Fin 2048, F (c.val * 2048 + j.val))
      = ∑ c : Fin 4, ∑ g : Fin 16, ∑ l : Fin 128, F (c.val * 2048 + (g.val * 128 + l.val)) :=
        Finset.sum_congr rfl fun c _ => h2 c
    _ = ∑ c : Fin 4, ∑ l : Fin 128, ∑ g : Fin 16, F (c.val * 2048 + (g.val * 128 + l.val)) :=
        Finset.sum_congr rfl fun c _ => Finset.sum_comm
    _ = ∑ l : Fin 128, ∑ c : Fin 4, ∑ g : Fin 16, F (c.val * 2048 + (g.val * 128 + l.val)) := Finset.sum_comm

end Cert.RowsumAlg
-- ==== Proof.KiPay.lean ====
/-
  The value the body stores, read at one row.

  The body's store is the four chunks' lane sums added in order and then summed over the lanes. One chunk's lane sum at
  (p, l) is the sum over its sixteen groups g of the masked exponential at column g · 128 + l of the chunk; the masked
  exponential at (p, j) is zero where the global row word equals the global column word — an equality of numbers, both
  far below 2³² — and otherwise the exponential of twice the dot product of row p of the block with row j of the chunk
  (the matrix product into a zero accumulator is the plain sum over the 128 features, the transpose and the two casts
  only rename indices). Chunk c's rows are rows c · 2048 … of the whole array. Regrouping lanes, chunks and groups
  into the 8192 columns gives: the stored value at row p of point t is the sum over every column of that column's term.
-/
import proofs.«104813_j79534204387857_2_alg».proof.Proof.KiBody
import proofs.«104813_j79534204387857_2_alg».proof.Proof.LibDotAt
import proofs.«104813_j79534204387857_2_alg».proof.Proof.Spec
import proofs.«104813_j79534204387857_2_alg».proof.Proof.Alg
import Idealize.ShloMosaic.Lib.Pipeline.Value

set_option maxRecDepth 16384

noncomputable section

namespace Cert.KernelIdeal.Pay

open Cert.KernelIdeal Cert.KernelIdeal.Gen Cert.KernelIdeal.Rowsum
open Idealize.ShloMosaic Idealize.ShloMosaic.ValueIdx Cert.RowsumSpec

/-- Sixteen groups of 128 lanes added into lane sums: entry (p, l) is the sum over the groups g of column g·128 + l. -/
theorem laneSum_apply (E : FVec Ideal S512x2048 .f32) (p : Fin 512) (l : Fin 128) :
    multiReduction .add [1] S512x128 (shapeCast S512x16x128 E shapeCasts_S512x2048_S512x16x128) 0x00000000#32
        reduces_S512x16x128_S512x128 (.inl rfl) rfl (ix2 p l)
      = ∑ g : Fin 16, E (ix2 p ⟨g.val * 128 + l.val, by omega⟩) := by
  refine (Ideal.multiReduction_add_single _ _ reduces_S512x16x128_S512x128 (.inl rfl) rfl (ix2 p l)).trans ?_
  refine Finset.sum_congr rfl fun g _ => ?_
  have hg : g.val < 16 := g.isLt
  refine shapeCast_apply E shapeCasts_S512x2048_S512x16x128 _ (ix2 p ⟨g.val * 128 + l.val, by omega⟩) ?_
  rw [Shape.rowMajor_val_two, Shape.rowMajor_val_three]
  show p.val * 2048 + (g.val * 128 + l.val) = (p.val * 16 + g.val) * 128 + l.val
  omega

/-- The printed dimension numbers of the 512×128 by 128×2048 product. -/
abbrev DD := dot_S512x128_S128x2048_S512x2048_1_0_0_1_n_n

theorem dd_l0 (j : S512x2048.Idx) (q : DD.contr.Idx) : (DD.lhsIdx j q 0).val = (j 0).val := by
  unfold DotDims.lhsIdx
  rw [dif_neg (show ¬(0 : Fin S512x128.rank) ∈ DD.lhsBatch by decide), dif_pos (show (0 : Fin S512x128.rank) ∈ DD.lhsNonContracting by decide)]
  rfl
theorem dd_l1 (j : S512x2048.Idx) (q : DD.contr.Idx) : (DD.lhsIdx j q 1).val = (q ⟨0, by decide⟩).val :=
  DD.lhsIdx_val_of_single rfl j q
theorem dd_r0 (j : S512x2048.Idx) (q : DD.contr.Idx) : (DD.rhsIdx j q 0).val = (q ⟨0, by decide⟩).val :=
  DD.rhsIdx_val_of_single rfl j q
theorem dd_r1 (j : S512x2048.Idx) (q : DD.contr.Idx) : (DD.rhsIdx j q 1).val = (j 1).val := by
  unfold DotDims.rhsIdx
  rw [dif_neg (show ¬(1 : Fin S128x2048.rank) ∈ DD.rhsBatch by decide), dif_pos (show (1 : Fin S128x2048.rank) ∈ DD.rhsNonContracting by decide)]
  rfl

/-- The exponential of twice the products of 512 rows `a` with 2048 rows `b`. -/
def expMat (a : FVec Ideal S512x128 .f32) (b : FVec Ideal S2048x128 .f32) : FVec Ideal S512x2048 .f32 :=
  exp (mulf (matmul DD (some .fp32) a
      (transpose S128x2048 [1, 0] (shapeCast S2048x128 b shapeCasts_S2048x128_S2048x128) transposes_S2048x128_p1_0_S128x2048)
      (constant S512x2048 .f32 0x00000000#32)) (broadcast S512x2048 (Scalar.ofBits .f32 0x40000000#32)))

/-- Entry (p, j): the exponential of twice the dot product of row p of `a` and row j of `b`. -/
theorem expMat_apply (a : FVec Ideal S512x128 .f32) (b : FVec Ideal S2048x128 .f32) (p : Fin 512) (j : Fin 2048) :
    expMat a b (ix2 p j) = Ideal.exp ((∑ k : Fin 128, a (ix2 p k) * b (ix2 j k)) * two) := by
  unfold expMat
  show Ideal.exp (FloatOps.matmul DD (some .fp32) a _ (constant (F := Ideal) S512x2048 .f32 0x00000000#32) (ix2 p j) * two) = _
  refine congrArg (fun z => Ideal.exp (z * two)) ?_
  refine (Cert.LibDotAt.matmul_zero_ix2 DD rfl rfl dd_l0 dd_l1 dd_r0 dd_r1 (some .fp32) a _ p j).trans ?_
  refine Finset.sum_congr rfl fun k _ => congrArg (a (ix2 p k) * ·) ?_
  refine (transpose_apply [1, 0] _ transposes_S2048x128_p1_0_S128x2048 (ix2 k j) (ix2 j k)
    (fun bb => match bb with | ⟨0, _⟩ => rfl | ⟨1, _⟩ => rfl)).trans ?_
  rw [shapeCast_self]

/-- The mask: one where the global row word equals the global column word. -/
def maskIdx (rb cb : BitVec 32) : IVec S512x2048 1 :=
  cmpi .eq (addi (broadcast S512x2048 rb) (iota .tc S512x2048 32 [0] iota_S512x2048_d0_w32))
    (addi (broadcast S512x2048 cb) (iota .tc S512x2048 32 [1] iota_S512x2048_d1_w32))

theorem maskIdx_apply (rb cb : BitVec 32) (p : Fin 512) (j : Fin 2048) :
    maskIdx rb cb (ix2 p j) = IntOp.cmpi .eq (rb + BitVec.ofNat 32 p.val) (cb + BitVec.ofNat 32 j.val) := by
  unfold maskIdx
  show IntOp.cmpi .eq (IntOp.addi rb (iota .tc S512x2048 32 [0] iota_S512x2048_d0_w32 (ix2 p j)))
    (IntOp.addi cb (iota .tc S512x2048 32 [1] iota_S512x2048_d1_w32 (ix2 p j))) = _
  rw [iota_single_apply, iota_single_apply]
  rfl

/-- A select on an equality of words is a choice on the equality. -/
theorem select_cmpi_eq {α : Type} (x y : BitVec 32) (u v : α) :
    Scalar.select (IntOp.cmpi .eq x y) u v = if x = y then u else v := by
  unfold Scalar.select IntOp.cmpi
  by_cases h : x = y
  · subst h; simp
  · have hb : (x == y) = false := beq_eq_false_iff_ne.mpr h
    rw [hb, if_neg h]
    simp

/-- One chunk's lane sums: the masked exponentials of the chunk, sixteen groups of 128 lanes added. -/
def chunkLanes (rb cb : BitVec 32) (z : Ideal .f32) (a : FVec Ideal S512x128 .f32) (b : FVec Ideal S2048x128 .f32) :
    FVec Ideal S512x128 .f32 :=
  multiReduction .add [1] S512x128
    (shapeCast S512x16x128 (select (maskIdx rb cb) (broadcast S512x2048 z) (expMat a b)) shapeCasts_S512x2048_S512x16x128)
    0x00000000#32 reduces_S512x16x128_S512x128 (.inl rfl) rfl

theorem chunkLanes_apply (rb cb : BitVec 32) (z : Ideal .f32) (a : FVec Ideal S512x128 .f32) (b : FVec Ideal S2048x128 .f32)
    (p : Fin 512) (l : Fin 128) :
    chunkLanes rb cb z a b (ix2 p l)
      = ∑ g : Fin 16, if rb + BitVec.ofNat 32 p.val = cb + BitVec.ofNat 32 (g.val * 128 + l.val) then z
          else Ideal.exp ((∑ k : Fin 128, a (ix2 p k) * b (ix2 ⟨g.val * 128 + l.val, by omega⟩ k)) * two) := by
  unfold chunkLanes
  refine (laneSum_apply _ p l).trans ?_
  refine Finset.sum_congr rfl fun g _ => ?_
  show Scalar.select (maskIdx rb cb (ix2 p ⟨g.val * 128 + l.val, by omega⟩)) z (expMat a b (ix2 p ⟨g.val * 128 + l.val, by omega⟩)) = _
  rw [maskIdx_apply, expMat_apply, select_cmpi_eq]

set_option maxHeartbeats 2000000 in
/-- The body's stored value is the four chunks' lane sums added in order and summed over the lanes. -/
theorem rowVal_eq (i : grid0.Coords) (x0 : Vec Ideal S512x128 .f32) (x1 : Vec Ideal S8192x128 .f32) :
    rowVal i x0 x1 = shapeCast S512x1
      (multiReduction .add [1] S512
        (addf (addf (addf (addf (broadcast S512x128 (Scalar.ofBits .f32 0x00000000#32))
            (chunkLanes (rowBase i) (Scalar.muli 0#32 2048#32) (Scalar.ofBits .f32 0x00000000#32) (k0_pay2 (View.ld x0 rA)) (View.ld x1 rB0)))
            (chunkLanes (rowBase i) (Scalar.muli 1#32 2048#32) (Scalar.ofBits .f32 0x00000000#32) (k0_pay2 (View.ld x0 rA)) (View.ld x1 rB1)))
            (chunkLanes (rowBase i) (Scalar.muli 2#32 2048#32) (Scalar.ofBits .f32 0x00000000#32) (k0_pay2 (View.ld x0 rA)) (View.ld x1 rB2)))
            (chunkLanes (rowBase i) (Scalar.muli 3#32 2048#32) (Scalar.ofBits .f32 0x00000000#32) (k0_pay2 (View.ld x0 rA)) (View.ld x1 rB3)))
        0x00000000#32 reduces_S512x128_S512 (.inl rfl) rfl) shapeCasts_S512_S512x1 := by
  unfold rowVal k0_pay1 k0_pay7 k0_pay3 k0_pay4 k0_pay5 k0_pay6 k0_pay8 k0_pay9 chunkLanes maskIdx expMat
  rfl

/-- Equality of the global row and column words is equality of the numbers: neither sum reaches 2³². -/
theorem word_eq_iff (t p c j : Nat) (ht : t < 16) (hp : p < 512) (hc : c < 4) (hj : j < 2048) :
    (Scalar.muli (BitVec.ofNat 32 t) 512#32 + BitVec.ofNat 32 p = Scalar.muli (BitVec.ofNat 32 c) 2048#32 + BitVec.ofNat 32 j)
      ↔ t * 512 + p = c * 2048 + j := by
  unfold Scalar.muli IntOp.muli
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

/-- Column `n`'s term of row `t · 512 + p`, over the block of 512 rows `x0` and all the rows `x1`. -/
def colTerm (t : Nat) (x0 : Vec Ideal S512x128 .f32) (x1 : Vec Ideal S8192x128 .f32) (p : Fin 512) (n : Nat) : EReal :=
  if h : n < 8192 then
    (if t * 512 + p.val = n then 0 else Ideal.exp ((∑ k : Fin 128, x0 (ix2 p k) * x1 (ix2 ⟨n, h⟩ k)) * two))
  else 0

/-- Chunk `c` of the 2048-row loads. -/
abbrev rB (c : Fin 4) : Rect S8192x128 :=
  Rect.unit (s := S8192x128) (k0_off1 (BitVec.ofNat 32 c.val)) S2048x128.size (k0_off1_inb c)

/-- Row j of chunk c is row c · 2048 + j. -/
theorem ld_rB (x1 : Vec Ideal S8192x128 .f32) (c : Fin 4) (j : Fin 2048) (k : Fin 128) :
    View.ld x1 (rB c) (ix2 j k) = x1 (ix2 ⟨c.val * 2048 + j.val, by omega⟩ k) := by
  show x1 ((rB c).idx (ix2 j k)) = _
  refine congrArg x1 (funext fun a => Fin.ext ?_)
  have hoff := k0_off1_eq c
  match a with
  | ⟨0, _⟩ =>
    show (k0_off1 (BitVec.ofNat 32 c.val)) 0 + 1 * j.val = c.val * 2048 + j.val
    rw [hoff]; show 2048 * c.val + 1 * j.val = _; omega
  | ⟨1, _⟩ =>
    show (k0_off1 (BitVec.ofNat 32 c.val)) 1 + 1 * k.val = k.val
    rw [hoff]; show 0 + 1 * k.val = _; omega

/-- The 512 rows, read whole and re-cast to their own shape, are themselves. -/
theorem ld_rA (x0 : Vec Ideal S512x128 .f32) (p : Fin 512) (k : Fin 128) :
    k0_pay2 (View.ld x0 rA) (ix2 p k) = x0 (ix2 p k) := by
  unfold k0_pay2
  rw [shapeCast_self]
  show x0 (rA.idx (ix2 p k)) = _
  refine congrArg x0 (funext fun a => Fin.ext ?_)
  match a with
  | ⟨0, _⟩ => show 0 + 1 * p.val = p.val; omega
  | ⟨1, _⟩ => show 0 + 1 * k.val = k.val; omega

/-- One chunk's lane sum at (p, l): the terms of the chunk's sixteen columns g · 128 + l. -/
theorem chunk_term (t : Nat) (ht : t < 16) (x0 : Vec Ideal S512x128 .f32) (x1 : Vec Ideal S8192x128 .f32)
    (p : Fin 512) (l : Fin 128) (c : Fin 4) :
    chunkLanes (Scalar.muli (BitVec.ofNat 32 t) 512#32) (Scalar.muli (BitVec.ofNat 32 c.val) 2048#32)
        (Scalar.ofBits .f32 0x00000000#32) (k0_pay2 (View.ld x0 rA)) (View.ld x1 (rB c)) (ix2 p l)
      = ∑ g : Fin 16, colTerm t x0 x1 p (c.val * 2048 + (g.val * 128 + l.val)) := by
  refine (chunkLanes_apply _ _ _ _ _ p l).trans ?_
  refine Finset.sum_congr rfl fun g _ => ?_
  have hg : g.val < 16 := g.isLt
  have hn : c.val * 2048 + (g.val * 128 + l.val) < 8192 := by omega
  unfold colTerm
  rw [dif_pos hn]
  refine if_congr (word_eq_iff t p.val c.val (g.val * 128 + l.val) ht p.isLt c.isLt (by omega)) ?_ ?_
  · exact Ideal.ofBits_zero_f32
  · refine congrArg (fun z => Ideal.exp (z * two)) (Finset.sum_congr rfl fun k _ => ?_)
    rw [ld_rA, ld_rB]

set_option maxHeartbeats 2000000 in
/-- The stored value in the spelling of `chunk_term`: chunk `c`'s column word is `c · 2048`, its rows the load `rB c`. -/
theorem rowVal_eq' (i : grid0.Coords) (x0 : Vec Ideal S512x128 .f32) (x1 : Vec Ideal S8192x128 .f32) :
    rowVal i x0 x1 = shapeCast S512x1
      (multiReduction .add [1] S512
        (addf (addf (addf (addf (broadcast S512x128 (Scalar.ofBits .f32 0x00000000#32))
            (chunkLanes (rowBase i) (Scalar.muli (BitVec.ofNat 32 (0 : Fin 4).val) 2048#32) (Scalar.ofBits .f32 0x00000000#32) (k0_pay2 (View.ld x0 rA)) (View.ld x1 (rB 0))))
            (chunkLanes (rowBase i) (Scalar.muli (BitVec.ofNat 32 (1 : Fin 4).val) 2048#32) (Scalar.ofBits .f32 0x00000000#32) (k0_pay2 (View.ld x0 rA)) (View.ld x1 (rB 1))))
            (chunkLanes (rowBase i) (Scalar.muli (BitVec.ofNat 32 (2 : Fin 4).val) 2048#32) (Scalar.ofBits .f32 0x00000000#32) (k0_pay2 (View.ld x0 rA)) (View.ld x1 (rB 2))))
            (chunkLanes (rowBase i) (Scalar.muli (BitVec.ofNat 32 (3 : Fin 4).val) 2048#32) (Scalar.ofBits .f32 0x00000000#32) (k0_pay2 (View.ld x0 rA)) (View.ld x1 (rB 3))))
        0x00000000#32 reduces_S512x128_S512 (.inl rfl) rfl) shapeCasts_S512_S512x1 :=
  rowVal_eq i x0 x1

set_option maxHeartbeats 2000000 in
/-- THE BODY'S STORED VALUE at row p of point t: the sum over all 8192 columns of the column's term. -/
theorem rowVal_apply (i : grid0.Coords) (t : Nat) (ht : t < 16) (hi : (i 0).val = t)
    (x0 : Vec Ideal S512x128 .f32) (x1 : Vec Ideal S8192x128 .f32) (p : Fin 512) :
    rowVal i x0 x1 (ix2 p 0) = ∑ col : Fin 8192, colTerm t x0 x1 p col.val := by
  have hrb : rowBase i = Scalar.muli (BitVec.ofNat 32 t) 512#32 := by unfold rowBase; rw [hi]
  rw [rowVal_eq', hrb, Cert.RowsumAlg.sum_cols (colTerm t x0 x1 p)]
  refine (shapeCast_apply _ shapeCasts_S512_S512x1 (ix2 p 0) (ix1 p) ?_).trans ?_
  · rw [Shape.rowMajor_val_one, Shape.rowMajor_val_two]; show p.val = p.val * 1 + 0; omega
  refine (Ideal.multiReduction_add_single _ _ reduces_S512x128_S512 (.inl rfl) rfl (ix1 p)).trans ?_
  refine Finset.sum_congr rfl fun (l : Fin 128) _ => ?_
  have hl : reduces_S512x128_S512.lift (ix1 p) l = ix2 p l :=
    funext fun a => Fin.ext (by match a with | ⟨0, _⟩ => rfl | ⟨1, _⟩ => rfl)
  rw [hl]
  simp only [addf_apply, broadcast_apply]
  rw [chunk_term t ht x0 x1 p l 0, chunk_term t ht x0 x1 p l 1, chunk_term t ht x0 x1 p l 2, chunk_term t ht x0 x1 p l 3,
    Fin.sum_univ_four]
  show Ideal.ofBits .f32 0x00000000#32 + _ + _ + _ + _ = _
  rw [Ideal.ofBits_zero_f32, zero_add]

end Cert.KernelIdeal.Pay

end
-- ==== Proof.KiDen.lean ====
/-
  The result array after the region, read at one row.

  Point `t` of the grid handles rows `t · 512 … t · 512 + 511`. Its first window's block is those rows of the stacked
  rows `R`, its second window's block is all of `R`, and what it writes back at row `p` of its block is the sum over
  every column of the column's term for row `t · 512 + p`: the denominator of that row. The sixteen blocks are
  disjoint and fill the array, so entry `(r, 0)` of the array after the write-backs is the denominator of row `r`.
-/
import proofs.«104813_j79534204387857_2_alg».proof.Proof.KiRun
import proofs.«104813_j79534204387857_2_alg».proof.Proof.KiPay
import proofs.«104813_j79534204387857_2_alg».proof.Proof.Spec
import Idealize.ShloMosaic.Lib.Pipeline.Value

set_option maxRecDepth 16384

noncomputable section

namespace Cert.KernelIdeal.Den

open Cert.KernelIdeal Cert.KernelIdeal.Gen Cert.KernelIdeal.Rowsum Cert.KernelIdeal.Pay
open Idealize.ShloMosaic Idealize.ShloMosaic.TcCoe Idealize.ShloMosaic.ValueIdx Idealize.SL.Sem Cert.RowsumSpec
open Idealize.ShloMosaic.Pipeline (Dat Cfg Window)

variable (m : (ℓ : Loc nD τ sig) → Buf (Elt Ideal) ℓ) (ρ : Dev nD → PrngReg)

/-- The stacked rows as the region finds them. -/
abbrev Rk (c : Dev nD) : Reps := V4 m ρ c main_v10

/-- The printed index maps and the grid's coordinates, decided over the sixteen points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ ((grid0.coords t) 0).val = t.val ∧ t.val < 16 :=
  (by decide +kernel : ∀ t : Fin grid0.N, _)

/-- Row p of the first window's block at point t is row t · 512 + p of the stacked rows. -/
theorem iblk0_apply (c : Dev nD) (t : Fin cfg0.N) (p : Fin 512) (k : Fin 128) :
    iblk (V4 m ρ) c 0 t (ix2 p k)
      = Rk m ρ c (ix2 ⟨t.val * 512 + p.val, by have := (idx_facts t).2.2.2.2.2.2.2; omega⟩ k) := by
  obtain ⟨e0, e1, -⟩ := idx_facts t
  show V4 m ρ c main_v10 (((cfg0.win 0).blk t).view.emb (ix2 p k)) = _
  refine congrArg (V4 m ρ c main_v10) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 128 + 1 * k.val = k.val; rw [e1]; omega

/-- The second window's block is the stacked rows, whole, at every point. -/
theorem iblk1_apply (c : Dev nD) (t : Fin cfg0.N) (q : Fin 8192) (k : Fin 128) :
    iblk (V4 m ρ) c 1 t (ix2 q k) = Rk m ρ c (ix2 q k) := by
  obtain ⟨-, -, e2, e3, -⟩ := idx_facts t
  show V4 m ρ c main_v10 (((cfg0.win 1).blk t).view.emb (ix2 q k)) = _
  refine congrArg (V4 m ρ c main_v10) (funext fun a => Fin.ext ?_)
  match a with
  | ⟨0, _⟩ => show win0_1.index t (0 : Fin 2) * 8192 + 1 * q.val = q.val; rw [e2]; omega
  | ⟨1, _⟩ => show win0_1.index t (1 : Fin 2) * 128 + 1 * k.val = k.val; rw [e3]; omega

theorem hz : (![0, 0] : Fin 2 → Nat) = fun _ => 0 := funext fun a => by fin_cases a <;> rfl

/-- WHAT POINT t WRITES BACK at row p of its block: the denominator of row t · 512 + p. -/
theorem flushed_apply (c : Dev nD) (t : Fin cfg0.N) (p : Fin 512) :
    (dat (V4 m ρ) c).flushed 2 t (ix2 p 0)
      = den (Rk m ρ c) ⟨t.val * 512 + p.val, by have := (idx_facts t).2.2.2.2.2.2.2; omega⟩ := by
  obtain ⟨-, -, -, -, -, -, ecoord, ht⟩ := idx_facts t
  show (cfg0.win 2).cut (grid0.coords t) ((dat (V4 m ρ) c).after 2 t) (ix2 p 0) = _
  rw [after_2]
  unfold rowOut
  rw [View.canon_unit_zero hz]
  show rowVal (grid0.coords t) (iblk (V4 m ρ) c 0 t) (iblk (V4 m ρ) c 1 t) (ix2 p 0) = _
  rw [rowVal_apply (grid0.coords t) t.val ht ecoord]
  unfold den
  refine Finset.sum_congr rfl fun col _ => ?_
  unfold colTerm term gram
  rw [dif_pos col.isLt]
  refine if_congr Iff.rfl rfl ?_
  refine congrArg (fun z => Ideal.exp (z * two)) (Finset.sum_congr rfl fun k _ => ?_)
  rw [iblk0_apply, iblk1_apply]

/-- THE ARRAY AFTER THE REGION at row r: the denominator of row r. -/
theorem den_out (c : Dev nD) (r : Fin 8192) :
    (dat (V4 m ρ) c).arrAt 2 cfg0.N (ix2 r 0) = den (Rk m ρ c) r := by
  have hr : r.val / 512 < grid0.N := by rw [N_0]; omega
  obtain ⟨-, -, -, -, e4, e5, -, ht⟩ := idx_facts ⟨r.val / 512, hr⟩
  refine (dat (V4 m ρ) c).arrAt_forall_of_flushed 2
    (fun (i : S8192x1.Idx) (v : EReal) => v = den (Rk m ρ c) ⟨(i 0).val, (i 0).isLt⟩)
    (fun t hf y => ?_) cfg0.N ⟨r.val / 512, hr⟩ (ix2 r 0) (Fin.isLt _) (flush0_2 _) ?_
  · obtain ⟨-, -, -, -, f4, -, -, ft⟩ := idx_facts t
    obtain ⟨p, rfl⟩ : ∃ p : Fin 512, y = ix2 p 0 :=
      ⟨y 0, funext fun a => by
        match a with
        | ⟨0, _⟩ => rfl
        | ⟨1, h1⟩ => exact Fin.ext (by have hy1 : (y ⟨1, h1⟩).val < 1 := (y ⟨1, h1⟩).isLt; show (y ⟨1, h1⟩).val = 0; omega)⟩
    show (dat (V4 m ρ) c).flushed 2 t (ix2 p 0) = _
    rw [flushed_apply]
    refine congrArg (den (Rk m ρ c)) (Fin.ext ?_)
    show t.val * 512 + p.val = win0_2.index t (0 : Fin 2) * 512 + 1 * p.val
    rw [f4]; omega
  · show ix2 r 0 ∈ ((View.whole main_v11).slice (win0_2.rect ⟨r.val / 512, hr⟩)).set
    rw [View.set_slice_whole, Rect.mem_set_unit]
    intro a
    match a with
    | ⟨0, _⟩ =>
      show win0_2.index ⟨r.val / 512, hr⟩ (0 : Fin 2) * 512 ≤ r.val ∧ r.val < win0_2.index ⟨r.val / 512, hr⟩ (0 : Fin 2) * 512 + 512
      rw [e4]; show r.val / 512 * 512 ≤ r.val ∧ r.val < r.val / 512 * 512 + 512; omega
    | ⟨1, _⟩ =>
      show win0_2.index ⟨r.val / 512, hr⟩ (1 : Fin 2) * 1 ≤ 0 ∧ 0 < win0_2.index ⟨r.val / 512, hr⟩ (1 : Fin 2) * 1 + 1
      rw [e5]; omega

end Cert.KernelIdeal.Den

end
-- ==== Proof.KiPos.lean ====
import proofs.«104813_j79534204387857_2_alg».proof.Proof.Gen.KernelIdeal
import proofs.«104813_j79534204387857_2_alg».proof.Proof.Spec
import Idealize.ShloMosaic.Lib.Pipeline.Value
noncomputable section
namespace Cert.KernelIdeal.Pos
open Cert.KernelIdeal Cert.KernelIdeal.Gen Idealize.ShloMosaic Idealize.ShloMosaic.ValueIdx Cert.RowsumSpec

/-- The sum along each row of the elementwise product of two arrays of 4096 rows of 128, read at row `j`:
    the sum over the 128 columns of the products. -/
theorem rowdot_apply (z0 z1 : FVec Ideal S4096x128 .f32) (j : Fin 4096) :
    Host.reduceAdd (F := Ideal) (mulf z0 z1) (constant S_ .f32 0x00000000#32) reducesTo_S4096x128_S4096_d1 h_S_ (ix1 j)
      = ∑ k : Fin 128, z0 (ix2 j k) * z1 (ix2 j k) := by
  have hR : S4096x128.Reduces [1] S4096 := by decide
  simp only [Host.reduceAdd, Ideal.hostReduceAdd_def]
  rw [Ideal.hostReduceAdd_single reducesTo_S4096x128_S4096_d1 hR]
  show Ideal.ofBits .f32 0x00000000#32 + _ = _
  rw [Ideal.ofBits_zero_f32, zero_add]
  refine Finset.sum_congr rfl fun k _ => ?_
  have hi : hR.lift (ix1 j) k = ix2 j k :=
    funext fun a => Fin.ext (by match a with | ⟨0, _⟩ => rfl | ⟨1, _⟩ => rfl)
  rw [hi]
  rfl

/-- The stacked vector of row products is each row's Gram entry with its partner row. In the first half row `r`
    is row `r` of the first array and its partner row `r` of the second; in the second half the two change places,
    and the product commutes. -/
theorem ker_pos (z0 z1 : FVec Ideal S4096x128 .f32) (r : Fin 8192) :
    concatenate S8192 0 [⟨S4096, Host.reduceAdd (F := Ideal) (mulf z0 z1) (constant S_ .f32 0x00000000#32) reducesTo_S4096x128_S4096_d1 h_S_⟩, ⟨S4096, Host.reduceAdd (F := Ideal) (mulf z0 z1) (constant S_ .f32 0x00000000#32) reducesTo_S4096x128_S4096_d1 h_S_⟩] concatenates_S4096_S4096_S8192_d0 (ix1 r)
      = pos (concatenate S8192x128 0 [⟨S4096x128, z0⟩, ⟨S4096x128, z1⟩] concatenates_S4096x128_S4096x128_S8192x128_d0) r := by
  have hr := r.isLt
  unfold pos gram
  by_cases h : r.val < 4096
  · -- first half: row `r` is row `j = r` of the first array, its partner row `j` of the second
    obtain ⟨j, hj⟩ : ∃ j : Fin 4096, j.val = r.val := ⟨⟨r.val, h⟩, rfl⟩
    have hp : (partner r).val = j.val + 4096 := by show (r.val + 4096) % 8192 = j.val + 4096; omega
    generalize partner r = p at hp ⊢
    refine (concatenate_pair_apply_left _ _ _ concatenates_S4096_S4096_S8192_d0 (ix1 r) rfl (ix1 j)
      (fun b => match b with | ⟨0, _⟩ => hj)).trans ?_
    rw [rowdot_apply]
    refine Finset.sum_congr rfl fun k _ => ?_
    exact congrArg₂ (· * ·)
      (concatenate_pair_apply_left _ _ _ concatenates_S4096x128_S4096x128_S8192x128_d0 (ix2 r k) rfl
        (ix2 j k) (fun b => match b with | ⟨0, _⟩ => hj | ⟨1, _⟩ => rfl)).symm
      (concatenate_pair_apply_right _ _ _ concatenates_S4096x128_S4096x128_S8192x128_d0 (ix2 p k) rfl rfl
        (ix2 j k)
        (fun b hb => match b, hb with | ⟨0, _⟩, hb => absurd rfl hb | ⟨1, _⟩, _ => rfl)
        hp.symm).symm
  · -- second half: row `r` is row `j = r - 4096` of the second array, its partner row `j` of the first
    obtain ⟨j, hj⟩ : ∃ j : Fin 4096, j.val + 4096 = r.val :=
      ⟨⟨r.val - 4096, by omega⟩, by show r.val - 4096 + 4096 = r.val; omega⟩
    have hp : j.val = (partner r).val := by show j.val = (r.val + 4096) % 8192; omega
    generalize partner r = p at hp ⊢
    refine (concatenate_pair_apply_right _ _ _ concatenates_S4096_S4096_S8192_d0 (ix1 r) rfl rfl (ix1 j)
      (fun b hb => match b, hb with | ⟨0, _⟩, hb => absurd rfl hb) hj).trans ?_
    rw [rowdot_apply]
    refine Finset.sum_congr rfl fun k _ => ?_
    refine (mul_comm _ _).trans ?_
    exact congrArg₂ (· * ·)
      (concatenate_pair_apply_right _ _ _ concatenates_S4096x128_S4096x128_S8192x128_d0 (ix2 r k) rfl rfl
        (ix2 j k)
        (fun b hb => match b, hb with | ⟨0, _⟩, hb => absurd rfl hb | ⟨1, _⟩, _ => rfl)
        hj).symm
      (concatenate_pair_apply_left _ _ _ concatenates_S4096x128_S4096x128_S8192x128_d0 (ix2 p k) rfl
        (ix2 j k) (fun b => match b with | ⟨0, _⟩ => hp | ⟨1, _⟩ => rfl)).symm

end Cert.KernelIdeal.Pos

end
-- ==== Proof.KiPrefix.lean ====
import proofs.«104813_j79534204387857_2_alg».proof.Proof.KiRun
import proofs.«104813_j79534204387857_2_alg».proof.Proof.Gen.ReferenceIdeal.Read
import proofs.«104813_j79534204387857_2_alg».proof.Proof.Spec

set_option maxRecDepth 16384

noncomputable section

namespace Cert.KernelIdeal.Prefix

open Cert.KernelIdeal Cert.KernelIdeal.Gen Cert.KernelIdeal.Rowsum
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Cert.RowsumSpec

variable (m : (ℓ : Loc nD τ sig) → Buf (Elt Ideal) ℓ) (ρ : Dev nD → PrngReg)

/-- At the kernel region's entry the stacked array is the two normalised arrays, as they then stand, one above the
    other: the last host operation before the region stacks them, and nothing in its stretch rewrites the first. -/
theorem W4_v10_concat (c : Dev nD) : W4 m ρ c (Proc.devRef .tc main_v10) = concatenate S8192x128 0 [⟨S4096x128, W4 m ρ c (Proc.devRef .tc main_v4)⟩, ⟨S4096x128, W4 m ρ c (Proc.devRef .tc main_v9)⟩] concatenates_S4096x128_S4096x128_S8192x128_d0 := by
  show StableHlo.after hostOps0_3 (W3 m ρ c) (Proc.devRef .tc main_v10)
    = concatenate S8192x128 0 [⟨S4096x128, StableHlo.after hostOps0_3 (W3 m ρ c) (Proc.devRef .tc main_v4)⟩,
        ⟨S4096x128, StableHlo.after hostOps0_3 (W3 m ρ c) (Proc.devRef .tc main_v9)⟩] concatenates_S4096x128_S4096x128_S8192x128_d0
  generalize W3 m ρ c = V3
  after_results

/-- The stacked array at the region's entry is the very term the reference program's reading names: both programs
    compute the row norms, bound them below, divide the rows by them and stack the two arrays, by the same operations
    on the same two arguments. -/
theorem W4_v10_ref (c : Dev nD) : (W4 m ρ c (Proc.devRef .tc main_v10) : Reps) = (Cert.ReferenceIdeal.Read.val_main_v10 (F := Ideal) (m ((c.tc : Thread nD τ).loc main_arg0)) (m ((c.tc : Thread nD τ).loc main_arg1)) : Reps) := by
  show StableHlo.after hostOps0_3 (StableHlo.after hostOps0_2 (StableHlo.after hostOps0_1 (StableHlo.after hostOps0 (W0 m ρ c)))) (Proc.devRef .tc main_v10) = _
  after_results
  unfold Cert.ReferenceIdeal.Read.val_main_v10 Cert.ReferenceIdeal.Read.val_main_v4 Cert.ReferenceIdeal.Read.val_main_v9
    Cert.ReferenceIdeal.Read.val_main_v3 Cert.ReferenceIdeal.Read.val_main_v8 Cert.ReferenceIdeal.Read.val_main_v2 Cert.ReferenceIdeal.Read.val_main_v7
    Cert.ReferenceIdeal.Read.val_main_v1 Cert.ReferenceIdeal.Read.val_main_v6 Cert.ReferenceIdeal.Read.val_main_cst Cert.ReferenceIdeal.Read.val_main_cst_0
    Cert.ReferenceIdeal.Read.val_main_v0 Cert.ReferenceIdeal.Read.val_main_v5
    Cert.ReferenceIdeal.Read.val_main_call0_v2 Cert.ReferenceIdeal.Read.val_main_call1_v2
    Cert.ReferenceIdeal.Read.val_main_call0_v1 Cert.ReferenceIdeal.Read.val_main_call1_v1
    Cert.ReferenceIdeal.Read.val_main_call0_v0 Cert.ReferenceIdeal.Read.val_main_call1_v0
    Cert.ReferenceIdeal.Read.val_main_call0_cst Cert.ReferenceIdeal.Read.val_main_call1_cst
  rfl

end Cert.KernelIdeal.Prefix

end
-- ==== Proof.RefSide.lean ====
import proofs.«104813_j79534204387857_2_alg».proof.Proof.Gen.ReferenceIdeal.Read
import proofs.«104813_j79534204387857_2_alg».proof.Proof.Spec
import Idealize.ShloMosaic.Lib.Pipeline.Value
noncomputable section
namespace Cert.RowsumRef
open Cert.ReferenceIdeal Cert.ReferenceIdeal.Read Idealize.ShloMosaic Idealize.ShloMosaic.ValueIdx Cert.RowsumSpec

/-! ## Three float words as extended reals -/

/-- The word of the float 1 is the extended real 1. -/
theorem ofBits_one_f32 : Ideal.ofBits .f32 0x3F800000#32 = 1 := by
  simp [Ideal.ofBits, Ideal.ieee, -EReal.coe_mul]; norm_num

/-- The word of the float one half is the real one half. -/
theorem ofBits_half_f32 : Ideal.ofBits .f32 0x3F000000#32 = ((1 / 2 : ℝ) : EReal) := by
  simp [Ideal.ofBits, Ideal.ieee, -EReal.coe_mul]; norm_num

/-- The word of the float 2 is the real 2. -/
theorem ofBits_two_f32 : Ideal.ofBits .f32 0x40000000#32 = ((2 : ℝ) : EReal) := by
  simp [Ideal.ofBits, Ideal.ieee, -EReal.coe_mul]; norm_num

/-- Dividing by one half is multiplying by two, for every extended real. -/
theorem div_half (g : EReal) : Ideal.div g (Ideal.ofBits .f32 0x3F000000#32) = g * two := by
  rw [ofBits_half_f32, Ideal.div_coe (by norm_num)]
  show g * _ = g * Ideal.ofBits .f32 0x40000000#32
  rw [ofBits_two_f32]
  norm_num

/-- One minus one is zero (both are real). -/
theorem one_sub_one : (1 : EReal) - 1 = 0 := by
  rw [← EReal.coe_one, ← EReal.coe_sub, sub_self, EReal.coe_zero]

/-! ## The diagonal mask -/

/-- The one-bit word "row number plus zero equals column number", read as a float, is 1 on the diagonal and 0 off it:
    two naturals below 8192 give the same 32-bit word only when they are equal. -/
theorem mask_word (a b : Nat) (ha : a < 8192) (hb : b < 8192) :
    FloatOps.uitofp (F := Ideal) .f32 (IntOp.cmpi .eq (IntOp.addi (BitVec.ofNat 32 a) 0#32) (BitVec.ofNat 32 b))
      = if a = b then (1 : EReal) else 0 := by
  show (((IntOp.cmpi .eq (IntOp.addi (BitVec.ofNat 32 a) 0#32) (BitVec.ofNat 32 b)).toNat : ℝ) : EReal) = _
  unfold IntOp.cmpi IntOp.addi
  simp only [BitVec.add_zero]
  by_cases h : a = b
  · subst h; simp
  · have hne : (BitVec.ofNat 32 a == BitVec.ofNat 32 b) = false := by
      rw [beq_eq_false_iff_ne]
      intro hh
      have h2 := congrArg BitVec.toNat hh
      simp only [BitVec.toNat_ofNat] at h2
      omega
    rw [hne, if_neg h]; simp

/-! ## The Gram entry -/

/-- The product of the stacked rows with their transpose, at row `r` and column `c`, is the dot product of rows `r` and `c`. -/
theorem ref_gram (x0 x1 : (⟨S4096x128, .f32⟩ : BufTy).Contents (Elt Ideal)) (r c : Fin 8192) :
    val_main_v12 (F := Ideal) x0 x1 (ix2 r c) = gram (val_main_v10 (F := Ideal) x0 x1) r c := by
  rw [val_main_v12_apply]
  unfold gram
  refine Finset.sum_congr rfl fun k _ => ?_
  rw [val_main_v11_apply]
  generalize val_main_v10 (F := Ideal) x0 x1 = R
  have h1 : lidx_main_v12 (ix2 r c) k = ix2 r k :=
    funext fun a => Fin.ext (by match a with | ⟨0, _⟩ => rfl | ⟨1, _⟩ => rfl)
  have h2 : idx_main_v11 (ridx_main_v12 (ix2 r c) k) = ix2 c k :=
    funext fun a => Fin.ext (by match a with | ⟨0, _⟩ => rfl | ⟨1, _⟩ => rfl)
  rw [h1, h2]

/-! ## One term of a row's denominator -/

/-- The masked exponential at row `r` and column `c`: zero on the diagonal, else the exponential of twice the Gram entry. -/
theorem ref_term (x0 x1 : (⟨S4096x128, .f32⟩ : BufTy).Contents (Elt Ideal)) (r c : Fin 8192) :
    val_main_v27 (F := Ideal) x0 x1 (ix2 r c) = term (val_main_v10 (F := Ideal) x0 x1) r c := by
  rw [val_main_v27_apply, val_main_v23_apply, val_main_v26_apply, val_main_v25_apply, ref_gram,
    val_main_v22_apply, val_main_cst_1_apply, val_main_v24_apply, val_main_cst_2_apply,
    val_main_v21_apply, val_main_v20_apply, val_main_v19_apply, val_main_v16_apply, val_main_v17_apply,
    val_main_v18_apply, val_main_c_apply]
  unfold term
  generalize gram (val_main_v10 (F := Ideal) x0 x1) r c = g
  show (Ideal.ofBits .f32 0x3F800000#32
        - FloatOps.uitofp (F := Ideal) .f32 (IntOp.cmpi .eq (IntOp.addi (BitVec.ofNat 32 r.val) 0#32) (BitVec.ofNat 32 c.val)))
      * Ideal.exp (Ideal.div g (Ideal.ofBits .f32 0x3F000000#32)) = _
  rw [mask_word r.val c.val r.isLt c.isLt, ofBits_one_f32, div_half]
  by_cases h : r.val = c.val
  · rw [if_pos h, if_pos h, one_sub_one, zero_mul]
  · rw [if_neg h, if_neg h, sub_zero, one_mul]

/-! ## A row's denominator -/

theorem ref_den (x0 x1 : (⟨S4096x128, .f32⟩ : BufTy).Contents (Elt Ideal)) (r : Fin 8192) :
    val_main_v28 (F := Ideal) x0 x1 (ix1 r) = den (val_main_v10 (F := Ideal) x0 x1) r := by
  rw [val_main_v28_apply, val_main_cst_3_apply, Ideal.ofBits_def, Ideal.ofBits_zero_f32, zero_add]
  unfold den
  refine Finset.sum_congr rfl fun c _ => ?_
  have hidx : idx_main_v28 (ix1 r) c = ix2 r c :=
    funext fun a => Fin.ext (by match a with | ⟨0, _⟩ => rfl | ⟨1, _⟩ => rfl)
  rw [hidx]
  exact ref_term x0 x1 r c

/-! ## Small 32-bit words -/

/-- A natural below 2^31, as a 32-bit word, reads back signed as itself. -/
theorem toInt_ofNat_small (n : Nat) (h : n < 2147483648) : (BitVec.ofNat 32 n).toInt = (n : Int) := by
  have h1 : (BitVec.ofNat 32 n).toNat = n := by rw [BitVec.toNat_ofNat]; omega
  rw [BitVec.toInt_eq_toNat_of_lt (by rw [h1]; omega), h1]

/-- Such a word is not negative: the signed comparison with the zero word answers the bit 0. -/
theorem slt_zero_small (n : Nat) (h : n < 2147483648) : IntOp.cmpi .slt (BitVec.ofNat 32 n) 0#32 = 0#1 := by
  show BitVec.ofBool ((BitVec.ofNat 32 n).slt 0#32) = 0#1
  have hs : (BitVec.ofNat 32 n).slt 0#32 = false := by
    rw [BitVec.slt_eq_decide, toInt_ofNat_small n h, BitVec.toInt_zero]
    exact decide_eq_false (by omega)
  rw [hs]; rfl

/-- The sum of two words of naturals is the word of the sum. -/
theorem addi_ofNat (a b : Nat) : IntOp.addi (BitVec.ofNat 32 a) (BitVec.ofNat 32 b) = BitVec.ofNat 32 (a + b) :=
  BitVec.ofNat_add_ofNat a b

/-- A row or column number below 8192, as a word, read signed and clamped into the array, is itself. -/
theorem toNat_clamp (n : Nat) (h : n < 8192) : min (BitVec.ofNat 32 n).toInt.toNat 8191 = n := by
  rw [toInt_ofNat_small n (by omega), Int.toNat_natCast]; omega

/-! ## The two index arrays of the diagonals -/

/-- First diagonal, row component: `j`. -/
theorem call2_row (j : Fin 4096) : val_main_call2_v16 (F := Ideal) (ix2 j (0 : Fin 2)) = BitVec.ofNat 32 j.val := by
  have hj := j.isLt
  unfold val_main_call2_v16
  refine (concatenate_pair_apply_left _ _ _ Gen.concatenates_S4096x1_S4096x1_S4096x2_d1 (ix2 j (0 : Fin 2)) rfl (ix2 j (0 : Fin 1))
    (fun b => match b with | ⟨0, _⟩ => rfl | ⟨1, _⟩ => rfl)).trans ?_
  rw [val_main_call2_v14_apply, val_main_call2_v8_apply, val_main_call2_v5_apply, val_main_call2_v0_apply,
    val_main_call2_v4_apply, val_main_call2_c_0_apply]
  show Scalar.select (IntOp.cmpi .slt (BitVec.ofNat 32 j.val) 0#32) _ (BitVec.ofNat 32 j.val) = _
  rw [slt_zero_small _ (by omega), select_zero]

/-- First diagonal, column component: `4096 + j`. -/
theorem call2_col (j : Fin 4096) : val_main_call2_v16 (F := Ideal) (ix2 j (1 : Fin 2)) = BitVec.ofNat 32 (4096 + j.val) := by
  have hj := j.isLt
  unfold val_main_call2_v16
  refine (concatenate_pair_apply_right _ _ _ Gen.concatenates_S4096x1_S4096x1_S4096x2_d1 (ix2 j (1 : Fin 2)) rfl rfl (ix2 j (0 : Fin 1))
    (fun b hb => match b, hb with | ⟨0, _⟩, _ => rfl | ⟨1, _⟩, hb => absurd rfl hb) rfl).trans ?_
  rw [val_main_call2_v15_apply, val_main_call2_v13_apply, val_main_call2_v10_apply, val_main_call2_v3_apply,
    val_main_call2_v2_apply, val_main_call2_c_apply, val_main_call2_v1_apply, val_main_call2_v9_apply, val_main_call2_c_2_apply]
  show Scalar.select (IntOp.cmpi .slt (IntOp.addi (BitVec.ofNat 32 4096) (BitVec.ofNat 32 j.val)) 0#32) _
    (IntOp.addi (BitVec.ofNat 32 4096) (BitVec.ofNat 32 j.val)) = _
  rw [addi_ofNat, slt_zero_small _ (by omega), select_zero]

/-- Second diagonal, row component: `4096 + j`. -/
theorem call3_row (j : Fin 4096) : val_main_call3_v16 (F := Ideal) (ix2 j (0 : Fin 2)) = BitVec.ofNat 32 (4096 + j.val) := by
  have hj := j.isLt
  unfold val_main_call3_v16
  refine (concatenate_pair_apply_left _ _ _ Gen.concatenates_S4096x1_S4096x1_S4096x2_d1 (ix2 j (0 : Fin 2)) rfl (ix2 j (0 : Fin 1))
    (fun b => match b with | ⟨0, _⟩ => rfl | ⟨1, _⟩ => rfl)).trans ?_
  rw [val_main_call3_v14_apply, val_main_call3_v8_apply, val_main_call3_v5_apply, val_main_call3_v3_apply,
    val_main_call3_v2_apply, val_main_call3_c_apply, val_main_call3_v1_apply, val_main_call3_v4_apply, val_main_call3_c_0_apply]
  show Scalar.select (IntOp.cmpi .slt (IntOp.addi (BitVec.ofNat 32 4096) (BitVec.ofNat 32 j.val)) 0#32) _
    (IntOp.addi (BitVec.ofNat 32 4096) (BitVec.ofNat 32 j.val)) = _
  rw [addi_ofNat, slt_zero_small _ (by omega), select_zero]

/-- Second diagonal, column component: `j`. -/
theorem call3_col (j : Fin 4096) : val_main_call3_v16 (F := Ideal) (ix2 j (1 : Fin 2)) = BitVec.ofNat 32 j.val := by
  have hj := j.isLt
  unfold val_main_call3_v16
  refine (concatenate_pair_apply_right _ _ _ Gen.concatenates_S4096x1_S4096x1_S4096x2_d1 (ix2 j (1 : Fin 2)) rfl rfl (ix2 j (0 : Fin 1))
    (fun b hb => match b, hb with | ⟨0, _⟩, _ => rfl | ⟨1, _⟩, hb => absurd rfl hb) rfl).trans ?_
  rw [val_main_call3_v15_apply, val_main_call3_v13_apply, val_main_call3_v10_apply, val_main_call3_v0_apply,
    val_main_call3_v9_apply, val_main_call3_c_2_apply]
  show Scalar.select (IntOp.cmpi .slt (BitVec.ofNat 32 j.val) 0#32) _ (BitVec.ofNat 32 j.val) = _
  rw [slt_zero_small _ (by omega), select_zero]

/-! ## The gather of one element per row, read at a row -/

/-- The gather with a two-component start index (row, column), no batching and no offset axes, at result row `j`:
    the operand at the row and column its start index names, each read signed and clamped into the array. -/
theorem gather_diag_at {α : Type} (x : S8192x8192.Idx → α) (idx : IVec S4096x2 32) (j : Fin 4096) (p q : Fin 8192)
    (hp : min (idx (ix2 j (0 : Fin 2))).toInt.toNat 8191 = p.val)
    (hq : min (idx (ix2 j (1 : Fin 2))).toInt.toNat 8191 = q.val) :
    Host.gather gather_S8192x8192_S4096x2_S4096_n_01_n_n_01_1_11 x idx (ix1 j) = x (ix2 p q) := by
  unfold Host.gather
  congr 1
  funext a
  refine Fin.ext ?_
  show gather_S8192x8192_S4096x2_S4096_n_01_n_n_01_1_11.start (ix1 j) idx a
      + gather_S8192x8192_S4096x2_S4096_n_01_n_n_01_1_11.batchCoord (ix1 j) a
      + gather_S8192x8192_S4096x2_S4096_n_01_n_n_01_1_11.offCoord (ix1 j) a = _
  rw [GatherDims.batchCoord_eq_zero _ _ _ List.not_mem_nil]
  have ha : a = (0 : Fin S8192x8192.rank) ∨ a = (1 : Fin S8192x8192.rank) := by
    rcases a with ⟨v, hv⟩
    have hv2 : v = 0 ∨ v = 1 := by change v < 2 at hv; omega
    rcases hv2 with rfl | rfl
    · left; rfl
    · right; rfl
  rcases ha with rfl | rfl
  · rw [GatherDims.offCoord_eq_zero _ _ _ (fun h => ((GatherDims.mem_sKept _ _).mp h).1 (by decide))]
    simp only [Nat.add_zero]
    unfold GatherDims.start
    rw [dif_pos (show (0 : Fin S8192x8192.rank) ∈ gather_S8192x8192_S4096x2_S4096_n_01_n_n_01_1_11.startIndexMap by decide)]
    have hsi : gather_S8192x8192_S4096x2_S4096_n_01_n_n_01_1_11.siIdx (ix1 j)
        ⟨List.idxOf (0 : Fin S8192x8192.rank) gather_S8192x8192_S4096x2_S4096_n_01_n_n_01_1_11.startIndexMap,
          List.idxOf_lt_length_iff.2 (by decide)⟩ = ix2 j (0 : Fin 2) := by
      funext b; refine Fin.ext ?_
      match b with
      | ⟨0, _⟩ => rfl
      | ⟨1, _⟩ => rfl
    rw [hsi]
    exact hp
  · rw [GatherDims.offCoord_eq_zero _ _ _ (fun h => ((GatherDims.mem_sKept _ _).mp h).1 (by decide))]
    simp only [Nat.add_zero]
    unfold GatherDims.start
    rw [dif_pos (show (1 : Fin S8192x8192.rank) ∈ gather_S8192x8192_S4096x2_S4096_n_01_n_n_01_1_11.startIndexMap by decide)]
    have hsi : gather_S8192x8192_S4096x2_S4096_n_01_n_n_01_1_11.siIdx (ix1 j)
        ⟨List.idxOf (1 : Fin S8192x8192.rank) gather_S8192x8192_S4096x2_S4096_n_01_n_n_01_1_11.startIndexMap,
          List.idxOf_lt_length_iff.2 (by decide)⟩ = ix2 j (1 : Fin 2) := by
      funext b; refine Fin.ext ?_
      match b with
      | ⟨0, _⟩ => rfl
      | ⟨1, _⟩ => rfl
    rw [hsi]
    exact hq

/-! ## The two diagonals -/

/-- The diagonal 4096 to the right, at `j`: the Gram entry of rows `j` and `j + 4096`. -/
theorem ref_v13 (x0 x1 : (⟨S4096x128, .f32⟩ : BufTy).Contents (Elt Ideal)) (j : Fin 4096) :
    val_main_v13 (F := Ideal) x0 x1 (ix1 j)
      = gram (val_main_v10 (F := Ideal) x0 x1) ⟨j.val, by omega⟩ ⟨j.val + 4096, by omega⟩ := by
  have hj := j.isLt
  unfold val_main_v13
  refine (gather_diag_at (val_main_v12 (F := Ideal) x0 x1) (val_main_call2_v16 (F := Ideal)) j
    ⟨j.val, by omega⟩ ⟨j.val + 4096, by omega⟩ ?_ ?_).trans (ref_gram x0 x1 _ _)
  · rw [call2_row]; exact toNat_clamp _ (by omega)
  · rw [call2_col, toNat_clamp _ (by omega)]; exact Nat.add_comm _ _

/-- The diagonal 4096 below, at `j`: the Gram entry of rows `j + 4096` and `j`. -/
theorem ref_v14 (x0 x1 : (⟨S4096x128, .f32⟩ : BufTy).Contents (Elt Ideal)) (j : Fin 4096) :
    val_main_v14 (F := Ideal) x0 x1 (ix1 j)
      = gram (val_main_v10 (F := Ideal) x0 x1) ⟨j.val + 4096, by omega⟩ ⟨j.val, by omega⟩ := by
  have hj := j.isLt
  unfold val_main_v14
  refine (gather_diag_at (val_main_v12 (F := Ideal) x0 x1) (val_main_call3_v16 (F := Ideal)) j
    ⟨j.val + 4096, by omega⟩ ⟨j.val, by omega⟩ ?_ ?_).trans (ref_gram x0 x1 _ _)
  · rw [call3_row, toNat_clamp _ (by omega)]; exact Nat.add_comm _ _
  · rw [call3_col]; exact toNat_clamp _ (by omega)

/-! ## A row's positive -/

theorem ref_pos (x0 x1 : (⟨S4096x128, .f32⟩ : BufTy).Contents (Elt Ideal)) (r : Fin 8192) :
    val_main_v15 (F := Ideal) x0 x1 (ix1 r) = pos (val_main_v10 (F := Ideal) x0 x1) r := by
  have hr := r.isLt
  unfold val_main_v15 pos
  by_cases h : r.val < 4096
  · refine (concatenate_pair_apply_left _ _ _ Gen.concatenates_S4096_S4096_S8192_d0 (ix1 r) rfl (ix1 (⟨r.val, h⟩ : Fin 4096))
      (fun b => match b with | ⟨0, _⟩ => rfl)).trans ?_
    rw [ref_v13]
    exact congrArg₂ _ (Fin.ext rfl) (Fin.ext (by show r.val + 4096 = (r.val + 4096) % 8192; omega))
  · refine (concatenate_pair_apply_right _ _ _ Gen.concatenates_S4096_S4096_S8192_d0 (ix1 r) rfl rfl
      (ix1 (⟨r.val - 4096, by omega⟩ : Fin 4096))
      (fun b hb => match b, hb with | ⟨0, _⟩, hb => absurd rfl hb) ?_).trans ?_
    · show r.val - 4096 + 4096 = r.val; omega
    rw [ref_v14]
    exact congrArg₂ _ (Fin.ext (by show r.val - 4096 + 4096 = r.val; omega))
      (Fin.ext (by show r.val - 4096 = (r.val + 4096) % 8192; omega))

end Cert.RowsumRef

end
-- ==== Proof.KiValue.lean ====
/-
  The two programs' results are one number.

  After the region the kernel's program forms, from the vector `pos` of positives and the vector `den` of denominators,
  the mean over the 8192 rows of `−(pos / ½) + log den`, divided by five more; the reference forms the same expression
  from its own `pos` and `den`. The kernel's `pos` stacks the row dot products of the two normalised arrays twice;
  the reference's takes two diagonals of the Gram matrix: row by row both are the Gram entry of a row of the stacked
  rows with its partner. The kernel's `den` is the result array of the region re-cast to a vector; the reference's is
  the row sum of the masked exponentials: row by row both are the sum, over the other rows, of the exponential of twice
  the Gram entry. The stacked rows themselves are one term of the arguments in both programs. So the results agree.
-/
import proofs.«104813_j79534204387857_2_alg».proof.Proof.KiDen
import proofs.«104813_j79534204387857_2_alg».proof.Proof.KiPos
import proofs.«104813_j79534204387857_2_alg».proof.Proof.KiPrefix
import proofs.«104813_j79534204387857_2_alg».proof.Proof.RefSide

set_option maxRecDepth 16384

noncomputable section

namespace Cert.KernelIdeal.Value

open Cert.KernelIdeal Cert.KernelIdeal.Gen Cert.KernelIdeal.Rowsum
open Idealize.ShloMosaic Idealize.ShloMosaic.TcCoe Idealize.ShloMosaic.ValueIdx Idealize.ShloMosaic.StableHlo Idealize.SL.Sem
open Cert.RowsumSpec

variable (m : (ℓ : Loc nD τ sig) → Buf (Elt Ideal) ℓ) (ρ : Dev nD → PrngReg)

/-- The loss from the positives and the denominators: the sum over the rows of `−(pos / ½) + log den`, over 40960. -/
def tail (P D : FVec Ideal S8192 .f32) : FVec Ideal S_ .f32 :=
  Host.divf (F := Ideal)
    (Host.reduceAdd (F := Ideal)
      (addf (Host.negf (F := Ideal) (Host.divf (F := Ideal) P (broadcastInDim S8192 ![] bcast_S_S8192 (constant (F := Ideal) S_ .f32 0x3F000000#32))))
        (Host.log (F := Ideal) D))
      (constant (F := Ideal) S_ .f32 0x00000000#32) reducesTo_S8192_S_d0 h_S_)
    (constant (F := Ideal) S_ .f32 0x47200000#32)

/-- The row dot products of the two normalised arrays. -/
abbrev rowDots (c : Dev nD) : FVec Ideal S4096 .f32 :=
  Host.reduceAdd (F := Ideal) (mulf (W5 m ρ c (Proc.devRef .tc main_v4)) (W5 m ρ c (Proc.devRef .tc main_v9)))
    (constant (F := Ideal) S_ .f32 0x00000000#32) reducesTo_S4096x128_S4096_d1 h_S_

/-- The kernel's positives: the row dot products, twice. -/
abbrev posK (c : Dev nD) : FVec Ideal S8192 .f32 :=
  concatenate S8192 0 [⟨S4096, rowDots m ρ c⟩, ⟨S4096, rowDots m ρ c⟩] concatenates_S4096_S4096_S8192_d0

/-- The kernel's denominators: the region's result re-cast to a vector. -/
abbrev denK (c : Dev nD) : FVec Ideal S8192 .f32 :=
  fun i => shapeCast S8192 (W5 m ρ c (Proc.devRef .tc main_v11)) shapeCasts_S8192x1_S8192 i

/-- The kernel's result is the tail of its positives and denominators. -/
theorem ker_tail (c : Dev nD) : W6 m ρ c (Proc.devRef .tc main_v22) = tail (posK m ρ c) (denK m ρ c) := by
  show StableHlo.after hostOps1 (W5 m ρ c) (Proc.devRef .tc main_v22) = _
  after_results
  rfl

/-- The reference's result is the tail of its own. -/
theorem ref_tail (x0 x1 : (⟨Cert.ReferenceIdeal.S4096x128, .f32⟩ : BufTy).Contents (Elt Ideal)) :
    Cert.ReferenceIdeal.Read.val_main_v35 (F := Ideal) x0 x1
      = tail (Cert.ReferenceIdeal.Read.val_main_v15 (F := Ideal) x0 x1) (Cert.ReferenceIdeal.Read.val_main_v28 (F := Ideal) x0 x1) := rfl

/-- The stacked rows at the region's entry, as the reference names them. -/
theorem reps_eq (c : Dev nD) :
    (Den.Rk m ρ c : Reps) = (Cert.ReferenceIdeal.Read.val_main_v10 (F := Ideal) (m ((c.tc : Thread nD τ).loc main_arg0)) (m ((c.tc : Thread nD τ).loc main_arg1)) : Reps) :=
  Prefix.W4_v10_ref m ρ c

/-- The positives agree, row by row. -/
theorem pos_eq (c : Dev nD) :
    posK m ρ c = Cert.ReferenceIdeal.Read.val_main_v15 (F := Ideal) (m ((c.tc : Thread nD τ).loc main_arg0)) (m ((c.tc : Thread nD τ).loc main_arg1)) := by
  funext i
  rw [eq_ix1 i]
  have h4 : W5 m ρ c (Proc.devRef .tc main_v4) = W4 m ρ c (Proc.devRef .tc main_v4) := W5_of_ne m ρ c main_v4 (by decide)
  have h9 : W5 m ρ c (Proc.devRef .tc main_v9) = W4 m ρ c (Proc.devRef .tc main_v9) := W5_of_ne m ρ c main_v9 (by decide)
  refine Eq.trans ?_ (Cert.RowsumRef.ref_pos _ _ (i 0)).symm
  rw [← reps_eq m ρ c]
  show posK m ρ c (ix1 (i 0)) = pos (W4 m ρ c (Proc.devRef .tc main_v10)) (i 0)
  rw [Prefix.W4_v10_concat m ρ c]
  unfold posK rowDots
  rw [h4, h9]
  exact Pos.ker_pos _ _ (i 0)

/-- The denominators agree, row by row. -/
theorem den_eq (c : Dev nD) :
    denK m ρ c = Cert.ReferenceIdeal.Read.val_main_v28 (F := Ideal) (m ((c.tc : Thread nD τ).loc main_arg0)) (m ((c.tc : Thread nD τ).loc main_arg1)) := by
  funext i
  rw [eq_ix1 i]
  refine Eq.trans ?_ (Cert.RowsumRef.ref_den _ _ (i 0)).symm
  rw [← reps_eq m ρ c]
  refine (shapeCast_apply _ shapeCasts_S8192x1_S8192 (ix1 (i 0)) (ix2 (i 0) 0) ?_).trans ?_
  · rw [Shape.rowMajor_val_one, Shape.rowMajor_val_two]; show (i 0).val * 1 + 0 = (i 0).val; omega
  rw [W5_out m ρ c]
  exact Den.den_out m ρ c (i 0)

/-- THE KERNEL'S RESULT is the reference's term of the same arguments. -/
theorem value_eq (c : Dev nD) :
    W6 m ρ c (Proc.devRef .tc main_v22)
      = Cert.ReferenceIdeal.Read.val_main_v35 (F := Ideal) (m ((c.tc : Thread nD τ).loc main_arg0)) (m ((c.tc : Thread nD τ).loc main_arg1)) := by
  rw [ker_tail, ref_tail, pos_eq, den_eq]

end Cert.KernelIdeal.Value

end
-- ==== Proof.lean ====
/-
  The certificate of the row-sum kernel against its reference: both compute the NT-Xent loss of two arrays of 4096
  rows of 128 features at temperature one half.

  Both programs divide every row by the larger of its Euclidean norm and 10⁻¹², stack the two normalised arrays into
  8192 unit rows, and from these form per row a positive (the dot product with the partner row, 4096 further on) and
  a denominator (the sum over the OTHER rows of the exponential of twice the dot product); the loss is the mean of
  `−2 · positive + log denominator`, over five. The reference forms the whole 8192 × 8192 matrix of dot products,
  reads the positives off two of its diagonals and masks its main diagonal by a product with `1 − identity`; the
  kernel takes 512 rows at a time against all 8192, never forms the matrix, masks by a select on row = column, adds
  the columns lane by lane, and takes the positives as plain row dot products of the two normalised arrays.
  At the ideal values these differ only by the order of finite sums, by `x / ½ = x · 2`, by `(1 − 1) · e = 0` and
  `(1 − 0) · e = e`, and by commutativity of a product: laws of the extended reals that need no finiteness, so the
  precondition is not opened. The ideal pass rewrote nothing, so `preserves` is trivial. The three frames: the
  kernel's two programs run as host stretches around one region whose two input windows read one array (each holds
  half of its share); the reference is a straight line of host operations.
-/
import proofs.«104813_j79534204387857_2_alg».proof.Defs
import proofs.«104813_j79534204387857_2_alg».proof.Proof.Gen.Kernel
import proofs.«104813_j79534204387857_2_alg».proof.Proof.Gen.KernelIdeal
import proofs.«104813_j79534204387857_2_alg».proof.Proof.Gen.ReferenceIdeal
import proofs.«104813_j79534204387857_2_alg».proof.Proof.Gen.ReferenceIdeal.Run
import proofs.«104813_j79534204387857_2_alg».proof.Proof.Gen.ReferenceIdeal.Read
import proofs.«104813_j79534204387857_2_alg».proof.Proof.Gen.Pre_finite_inputs
import proofs.«104813_j79534204387857_2_alg».proof.Proof.KRun
import proofs.«104813_j79534204387857_2_alg».proof.Proof.KiRun
import proofs.«104813_j79534204387857_2_alg».proof.Proof.KiValue
import Idealize.ShloMosaic.Adequacy
import Idealize.ShloMosaic.Init

noncomputable section

namespace Cert.Proof

open Idealize.ShloMosaic Idealize.SL.Sem

/-- The printed kernel runs and leaves its arguments as they were. -/
theorem frame_k : Cert.frame_Kernel := fun m ρ _ => Cert.Kernel.Rowsum.frame m ρ

/-- So does its reading at the ideal values. -/
theorem frame_ki : Cert.frame_KernelIdeal := fun m ρ _ => Cert.KernelIdeal.Rowsum.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the arguments both programs end with one result: the kernel's fold at its result buffer
    is the reference's term of the same arguments. -/
theorem algebraic : Cert.algebraic_KernelIdeal_ReferenceIdeal := by
  intro m ρ m' ρ' _ hagree
  refine ⟨fun c => Cert.KernelIdeal.Rowsum.W6 m ρ c (Proc.devRef .tc Cert.KernelIdeal.main_v22),
    Cert.KernelIdeal.Rowsum.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2]
  exact (Cert.KernelIdeal.Value.value_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
